-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩

abbrev nBuf : Space → Nat
  | .hbm => 84
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S128x128, .bf16⟩
  | .hbm, ⟨32, _⟩ => ⟨S128x128, .bf16⟩
  | .hbm, ⟨33, _⟩ => ⟨S128x40, .bf16⟩
  | .hbm, ⟨34, _⟩ => ⟨S50000x1, .f32⟩
  | .hbm, ⟨35, _⟩ => ⟨S50000x128, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x128, .f32⟩
  | .hbm, ⟨45, _⟩ => ⟨S_, .f32⟩
  | .hbm, ⟨46, _⟩ => ⟨S50000x128, .f32⟩
  | .hbm, ⟨47, _⟩ => ⟨S850000x1, .i32⟩
  | .hbm, ⟨48, _⟩ => ⟨S50000x128, .f32⟩
  | .hbm, ⟨49, _⟩ => ⟨S50000x1, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S50000x1, .f32⟩
  | .hbm, ⟨66, _⟩ => ⟨S1x128, .f32⟩
  | .hbm, ⟨67, _⟩ => ⟨S50000x40, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x40, .f32⟩
  | .hbm, ⟨77, _⟩ => ⟨S_, .f32⟩
  | .hbm, ⟨78, _⟩ => ⟨S50000x40, .f32⟩
  | .hbm, ⟨79, _⟩ => ⟨S850000x1, .i32⟩
  | .hbm, ⟨80, _⟩ => ⟨S50000x40, .f32⟩
  | .hbm, ⟨81, _⟩ => ⟨S50000x1, .f32⟩
  | .hbm, ⟨82, _⟩ => ⟨S1x40, .f32⟩
  | .hbm, ⟨83, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .bf16⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x40, .bf16⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | .local _ .vmem, ⟨24, _⟩ => ⟨S5000x40, .f32⟩
  | .local _ .vmem, ⟨25, _⟩ => ⟨S5000x1, .f32⟩
  | .local _ .vmem, ⟨26, _⟩ => ⟨S5000x1, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .bf16 = 32 ∨ (Rect.block (s := S128x40) S128x40.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x40.size a ≤ S50000x40.size a
  hwx2_4 : ∀ i : grid2.Coords, EltTy.bits .f32 = 32 ∨ (Rect.block (s := S50000x40) S5000x40.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S50000x40.size a
  hwx3_3 : ∀ i : grid3.Coords, EltTy.bits .f32 = 32 ∨ (Rect.block (s := S50000x40) S5000x40.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S5000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v56) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x128, .f32⟩
  | 83 => ⟨S850000x1, .f32⟩
  | 84 => ⟨S850000x128, .f32⟩
  | 85 => ⟨S850000x128, .f32⟩
  | 86 => ⟨S_, .f32⟩
  | 87 => ⟨S50000x128, .f32⟩
  | 88 => ⟨S850000x1, .i32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x40, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x40, .f32⟩
  | 106 => ⟨S850000x1, .f32⟩
  | 107 => ⟨S850000x40, .f32⟩
  | 108 => ⟨S850000x40, .f32⟩
  | 109 => ⟨S_, .f32⟩
  | 110 => ⟨S50000x40, .f32⟩
  | 111 => ⟨S850000x1, .i32⟩
  | 112 => ⟨S50000x40, .f32⟩
  | 113 => ⟨S1x40, .f32⟩
  | 114 => ⟨S50000x40, .f32⟩
  | 115 => ⟨S50000x40, .f32⟩
  | 116 => ⟨S_, .f32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x40, .f32⟩
  | 123 => ⟨S50000x40, .f32⟩
  | 124 => ⟨S50000x40, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S50000x1, .f32⟩
  | 1 => ⟨S50000x40, .f32⟩
  | 2 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call3_cst : Ref sig .tc := ⟨.hbm, 116, rfl⟩
abbrev main_call3_v0 : Ref sig .tc := ⟨.hbm, 117, rfl⟩
abbrev main_call3_cst_0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_cst_1 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_v84 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KRun.lean ====
/-
  The idealized kernel's run with its result named. The program is four pipelined regions among stretches of host
  operations; after the last region every unscoped buffer holds the last boundary's contents, so the result buffer
  holds what the fourth region's write-backs leave in its output array, and the arguments are as launched.
-/
import proofs.«120668_j1683627180254_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the contents of the last boundary and
    the arguments unchanged. -/
theorem run : θ_run defs (onTc (τ := τ) (main (F := F))) ⟨m, fun _ => 0, ρ⟩ (fun r => ∀ c : Dev nD,
      r.2.mem ((c.tc : Thread nD τ).loc main_v59) = W10 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v59 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.KRun

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.Body.lean ====
/-
  The four kernel bodies' stored values read at one entry of the block, at the exact (extended-real) values.
  Layer one: a row of the block times the weight matrix, scaled by the row's normalisation entry.
  Layers two and three: the row is first scaled, shifted by the bias and clipped below at zero, then multiplied.
  Last body: the scaled and shifted row minus its largest entry, minus the logarithm of the sum of exponentials.
-/
import proofs.«120668_j1683627180254_2_alg».proof.Proof.Gen.KernelIdeal.Skeleton
import proofs.«120668_j1683627180254_2_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## Layout: a column spread over the columns, a vector stood up as a column -/

/-- An [R, 1] column broadcast to [R, D] reads, at (p, q), the column's entry p. -/
theorem bcastCol_apply {α : Type} {R D : Nat} (hR : R ≠ 1) (x : (⟨2, ![R, 1]⟩ : Shape).Idx → α)
    (h : (⟨2, ![R, 1]⟩ : Shape).Broadcasts ⟨2, ![R, D]⟩) (p : Fin R) (q : Fin D) :
    broadcastTo ⟨2, ![R, D]⟩ x h (ix2 p q) = x (ix2 p (0 : Fin 1)) := by
  refine broadcastTo_apply x h (ix2 p q) (ix2 p (0 : Fin 1)) fun ax => ?_
  match ax with
  | ⟨0, _⟩ =>
    show p.val = if R = 1 then 0 else p.val
    rw [if_neg hR]
  | ⟨1, _⟩ => rfl

/-- An [R] vector cast to an [R, 1] column reads, at (p, 0), the vector's entry p. -/
theorem castCol_apply {α : Type} {R : Nat} (x : (⟨1, ![R]⟩ : Shape).Idx → α)
    (h : (⟨1, ![R]⟩ : Shape).ShapeCasts ⟨2, ![R, 1]⟩) (p : Fin R) (u : Fin 1) :
    shapeCast ⟨2, ![R, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The logarithm of an array, entry by entry. -/
theorem log_apply {s : Shape} {φ : FTy} (a : FVec Ideal s φ) (i : s.Idx) : log a i = Ideal.log (a i) := rfl

/-- The exponential of an array, entry by entry. -/
theorem exp_apply {s : Shape} {φ : FTy} (a : FVec Ideal s φ) (i : s.Idx) : exp a i = Ideal.exp (a i) := rfl

/-- The reduced index p of a row reduction with column k put back is (p, k). -/
theorem lift_row {R D : Nat} (h : (⟨2, ![R, D]⟩ : Shape).Reduces [1] (⟨1, ![R]⟩ : Shape)) (p : Fin R)
    (k : Fin ((⟨2, ![R, D]⟩ : Shape).size 1)) : h.lift (ix1 p) k = ix2 p (⟨k.val, k.isLt⟩ : Fin D) := by
  funext c; apply Fin.ext
  fin_cases c <;> rfl

/-! ## Layer one -/

/-- Entry (p, q) of the first body's stored value. -/
theorem pay0_apply (v0 : Vec Ideal S5000x128 .f32) (v2 : Vec Ideal S128x128 .bf16) (v5 : Vec Ideal S5000x1 .f32)
    (p : Fin 5000) (q : Fin 128) :
    k0_pay1 (F := Ideal) v0 v2 v5 (ix2 p q) = (∑ k : Fin 128, v0 (ix2 p k) * v2 (ix2 k q)) * v5 (ix2 p (0 : Fin 1)) := by
  unfold k0_pay1
  show (matmul (F := Ideal) dot_S5000x128_S128x128_S5000x128_1_0_0_1_n_n none (truncf .bf16 v0 bitsLt_bf16_f32)
      (shapeCast S128x128 v2 shapeCasts_S128x128_S128x128) (constant (F := Ideal) S5000x128 .f32 0x00000000#32)) (ix2 p q)
    * (broadcastTo S5000x128 (shapeCast S5000x1 v5 shapeCasts_S5000x1_S5000x1) broadcasts_S5000x1_S5000x128) (ix2 p q) = _
  rw [shapeCast_self, shapeCast_self, bcastCol_apply (by decide)]
  congr 1
  exact Cert.LibDot2.matmul_zero_apply dot_S5000x128_S128x128_S5000x128_1_0_0_1_n_n.wf none
    (truncf .bf16 v0 bitsLt_bf16_f32) v2 p q

/-! ## Layers two and three -/

/-- Entry (p, q) of the second body's stored value: the clipped row times the weights, scaled by the row's entry. -/
theorem pay1_apply (v0 : Vec Ideal S5000x128 .f32) (v2 : Vec Ideal S5000x1 .f32) (v6 : Vec Ideal S1x128 .f32)
    (v13 : Vec Ideal S128x128 .bf16) (v16 : Vec Ideal S5000x1 .f32) (p : Fin 5000) (q : Fin 128) :
    k1_pay1 (F := Ideal) v0 v2 v6 v13 v16 (ix2 p q)
      = (∑ k : Fin 128, max (v0 (ix2 p k) * v2 (ix2 p (0 : Fin 1)) + v6 (ix2 (0 : Fin 1) k)) (Ideal.ofBits .f32 0x00000000#32)
          * v13 (ix2 k q)) * v16 (ix2 p (0 : Fin 1)) := by
  unfold k1_pay1
  rw [mulf_apply]
  simp only [shapeCast_self]
  rw [bcastCol_apply (by decide)]
  congr 1
  refine (Cert.LibDot2.matmul_zero_apply (φ₁ := .bf16) (φ₂ := .bf16) dot_S5000x128_S128x128_S5000x128_1_0_0_1_n_n.wf none _ v13 p q).trans ?_
  refine Finset.sum_congr rfl fun k _ => ?_
  congr 1
  rw [truncf_apply, maximumf_apply, addf_apply, mulf_apply, broadcast_apply, bcastCol_apply (by decide),
    broadcastTo_1b_ab_apply]
  rfl

/-- Entry (p, q) of the third body's stored value, forty columns wide. -/
theorem pay2_apply (v0 : Vec Ideal S5000x128 .f32) (v2 : Vec Ideal S5000x1 .f32) (v6 : Vec Ideal S1x128 .f32)
    (v13 : Vec Ideal S128x40 .bf16) (v16 : Vec Ideal S5000x1 .f32) (p : Fin 5000) (q : Fin 40) :
    k2_pay1 (F := Ideal) v0 v2 v6 v13 v16 (ix2 p q)
      = (∑ k : Fin 128, max (v0 (ix2 p k) * v2 (ix2 p (0 : Fin 1)) + v6 (ix2 (0 : Fin 1) k)) (Ideal.ofBits .f32 0x00000000#32)
          * v13 (ix2 k q)) * v16 (ix2 p (0 : Fin 1)) := by
  unfold k2_pay1
  rw [mulf_apply]
  simp only [shapeCast_self]
  rw [bcastCol_apply (by decide)]
  congr 1
  refine (Cert.LibDot2.matmul_zero_apply (φ₁ := .bf16) (φ₂ := .bf16) dot_S5000x128_S128x40_S5000x40_1_0_0_1_n_n.wf none _ v13 p q).trans ?_
  refine Finset.sum_congr rfl fun k _ => ?_
  congr 1
  rw [truncf_apply, maximumf_apply, addf_apply, mulf_apply, broadcast_apply, bcastCol_apply (by decide),
    broadcastTo_1b_ab_apply]
  rfl

/-! ## The last body: a row's log-softmax -/

/-- The scaled and shifted entry of a row. -/
def logit (v0 : Vec Ideal S5000x40 .f32) (v2 : Vec Ideal S5000x1 .f32) (v6 : Vec Ideal S1x40 .f32) (p : Fin 5000)
    (j : Fin 40) : EReal := v0 (ix2 p j) * v2 (ix2 p (0 : Fin 1)) + v6 (ix2 (0 : Fin 1) j)

/-- A row's largest scaled and shifted entry, as the fold of max from the lowest value. -/
def rowMax (v0 : Vec Ideal S5000x40 .f32) (v2 : Vec Ideal S5000x1 .f32) (v6 : Vec Ideal S1x40 .f32) (p : Fin 5000) : EReal :=
  (Finset.univ : Finset (Fin 40)).fold max (Ideal.ofBits .f32 0xFF800000#32) (logit v0 v2 v6 p)

/-- Entry (p, q) of the last body's stored value. -/
theorem pay3_apply (v0 : Vec Ideal S5000x40 .f32) (v2 : Vec Ideal S5000x1 .f32) (v6 : Vec Ideal S1x40 .f32)
    (p : Fin 5000) (q : Fin 40) :
    k3_pay1 (F := Ideal) v0 v2 v6 (ix2 p q)
      = (logit v0 v2 v6 p q - rowMax v0 v2 v6 p)
        - Ideal.log (∑ j : Fin 40, Ideal.exp (logit v0 v2 v6 p j - rowMax v0 v2 v6 p)) := by
  unfold k3_pay1
  simp only [shapeCast_self]
  have hZ : ∀ j : Fin 40, (addf (F := Ideal) (φ := .f32) (mulf v0 (broadcastTo S5000x40 v2 broadcasts_S5000x1_S5000x40))
      (broadcastTo S5000x40 v6 broadcasts_S1x40_S5000x40)) (ix2 p j) = logit v0 v2 v6 p j := by
    intro j
    rw [addf_apply, mulf_apply, bcastCol_apply (by decide), broadcastTo_1b_ab_apply]
    rfl
  have hM : (multiReduction (F := Ideal) .maximumf [1] S5000 (addf (F := Ideal) (φ := .f32) (mulf v0 (broadcastTo S5000x40 v2 broadcasts_S5000x1_S5000x40))
      (broadcastTo S5000x40 v6 broadcasts_S1x40_S5000x40)) 0xFF800000#32 reduces_S5000x40_S5000 (.inl rfl) rfl) (ix1 p)
      = rowMax v0 v2 v6 p := by
    refine (Ideal.multiReduction_maximumf_single _ _ _ _ _ _).trans ?_
    unfold rowMax
    refine congrArg (fun f => Finset.fold max (Ideal.ofBits .f32 0xFF800000#32) f (Finset.univ : Finset (Fin 40))) ?_
    funext k
    show (addf (F := Ideal) (φ := .f32) (mulf v0 (broadcastTo S5000x40 v2 broadcasts_S5000x1_S5000x40))
      (broadcastTo S5000x40 v6 broadcasts_S1x40_S5000x40)) (reduces_S5000x40_S5000.lift (ix1 p) k) = logit v0 v2 v6 p k
    rw [lift_row]
    exact hZ ⟨k.val, k.isLt⟩
  have hsh : ∀ j : Fin 40, (subf (F := Ideal) (φ := .f32) (addf (F := Ideal) (φ := .f32) (mulf v0 (broadcastTo S5000x40 v2 broadcasts_S5000x1_S5000x40))
        (broadcastTo S5000x40 v6 broadcasts_S1x40_S5000x40))
      (broadcastTo S5000x40 (shapeCast S5000x1 (multiReduction (F := Ideal) .maximumf [1] S5000
        (addf (F := Ideal) (φ := .f32) (mulf v0 (broadcastTo S5000x40 v2 broadcasts_S5000x1_S5000x40)) (broadcastTo S5000x40 v6 broadcasts_S1x40_S5000x40))
        0xFF800000#32 reduces_S5000x40_S5000 (.inl rfl) rfl) shapeCasts_S5000_S5000x1) broadcasts_S5000x1_S5000x40)) (ix2 p j)
      = logit v0 v2 v6 p j - rowMax v0 v2 v6 p := by
    intro j
    rw [subf_apply, hZ j, bcastCol_apply (by decide), castCol_apply, hM]
  rw [subf_apply, hsh q, bcastCol_apply (by decide)]
  refine congrArg (fun z : EReal => (logit v0 v2 v6 p q - rowMax v0 v2 v6 p) - z) ?_
  rw [log_apply, castCol_apply]
  refine congrArg Ideal.log ?_
  refine (Ideal.multiReduction_add_single _ _ _ _ _ _).trans ?_
  refine Finset.sum_congr rfl fun k _ => ?_
  rw [lift_row, exp_apply]
  refine congrArg Ideal.exp ?_
  exact hsh ⟨k.val, k.isLt⟩

end Cert.KernelIdeal.Body

end
-- ==== Proof.Region0.lean ====
/-
  Layer one as one array. Each of the ten grid points computes five thousand consecutive rows of
  (x · W) scaled row by row; the ten blocks tile the fifty thousand rows, so after the region the output array holds,
  at (r, j), the sum over k of x(r, k) · W(k, j), times the normalisation entry of row r.
-/
import proofs.«120668_j1683627180254_2_alg».proof.Proof.Gen.KernelIdeal.Frame
import proofs.«120668_j1683627180254_2_alg».proof.Proof.Body

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row r, column j of the scaled product of a [50000, 128] array with a [128, 128] matrix. -/
def G (x : S50000x128.Idx → EReal) (d : S50000x1.Idx → EReal) (w : S128x128.Idx → EReal) : S50000x128.Idx → EReal :=
  fun i => (∑ k : Fin 128, x (ix2 (i 0) k) * w (ix2 k (i 1))) * d (ix2 (i 0) (0 : Fin 1))

/-- The body's stored value at a block index. -/
theorem pay_at (v0 : Vec Ideal S5000x128 .f32) (v2 : Vec Ideal S128x128 .bf16) (v5 : Vec Ideal S5000x1 .f32) (y : S5000x128.Idx) :
    k0_pay1 (F := Ideal) v0 v2 v5 y
      = (∑ k : Fin 128, v0 (ix2 (y 0) k) * v2 (ix2 k (y 1))) * v5 (ix2 (y 0) (0 : Fin 1)) := by
  exact (congrArg (k0_pay1 (F := Ideal) v0 v2 v5) (eq_ix2 y)).trans (Body.pay0_apply v0 v2 v5 (y 0) (y 1))

/-- The index maps over the ten points: rows move with the point, columns stay. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- What point t writes back is block t of the scaled product of the arrays as the region finds them. -/
theorem flushed_eq (c : Dev nD) (t : Fin cfg0.N) :
    (dat0 V c).flushed 3 t = ((cfg0.win 3).blk t).view.read (Elt Ideal) (G (V c main_arg0) (V c main_v19) (V c main_v16)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e30, e31, e00, e01, e10, e11, e20, e21⟩ := idx_facts t
  funext j
  refine (pay_at (iblk0 V c 0 t) (iblk0 V c 2 t) (iblk0 V c 1 t) j).trans ?_
  show _ = G (V c main_arg0) (V c main_v19) (V c main_v16) (((cfg0.win 3).blk t).view.emb j)
  have hj0 : (j 0).val < 5000 := (j 0).isLt
  have hj1 : (j 1).val < 128 := (j 1).isLt
  have h0 : ∀ k : Fin 128, iblk0 V c 0 t (ix2 (j 0) k)
      = (V c main_arg0 : S50000x128.Idx → EReal) (ix2 ((((cfg0.win 3).blk t).view.emb j) 0) k) := by
    intro k
    show (V c main_arg0 : S50000x128.Idx → EReal) (((cfg0.win 0).blk t).view.emb (ix2 (j 0) k)) = _
    refine congrArg _ ?_
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h2 : ∀ k : Fin 128, iblk0 V c 2 t (ix2 k (j 1))
      = (V c main_v16 : S128x128.Idx → EReal) (ix2 k ((((cfg0.win 3).blk t).view.emb j) 1)) := by
    intro k
    show (V c main_v16 : S128x128.Idx → EReal) (((cfg0.win 2).blk t).view.emb (ix2 k (j 1))) = _
    refine congrArg _ ?_
    funext a; apply Fin.ext
    match a with
    | ⟨0, _⟩ => show win0_2.index t (0 : Fin 2) * 128 + 1 * k.val = k.val; omega
    | ⟨1, _⟩ => show win0_2.index t (1 : Fin 2) * 128 + 1 * (j 1).val = win0_3.index t (1 : Fin 2) * 128 + 1 * (j 1).val; omega
  have h1 : iblk0 V c 1 t (ix2 (j 0) (0 : Fin 1))
      = (V c main_v19 : S50000x1.Idx → EReal) (ix2 ((((cfg0.win 3).blk t).view.emb j) 0) (0 : Fin 1)) := by
    show (V c main_v19 : S50000x1.Idx → EReal) (((cfg0.win 1).blk t).view.emb (ix2 (j 0) (0 : Fin 1))) = _
    refine congrArg _ ?_
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega
  simp only [G, h0, h1, h2]

/-- An index of the array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v20).slice (win0_3.rect t)).set ↔ _
  rw [View.set_slice_whole, Rect.mem_set_unit]
  exact Iff.rfl

/-- Every row is in some point's block. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by show (i 0).val / 5000 < 10; omega⟩, flush0_3 _, ?_⟩
  rw [mem_blk]
  obtain ⟨e30, e31, -⟩ := idx_facts ⟨(i 0).val / 5000, by show (i 0).val / 5000 < 10; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

/-- The output array after the region. -/
theorem final (c : Dev nD) : (dat0 V c).arrAt 3 cfg0.N = G (V c main_arg0) (V c main_v19) (V c main_v16) :=
  (dat0 V c).arrAt_eq_of_cover 3 _ (fun t _ => flushed_eq V c t) cover

end Cert.KernelIdeal.Region0

end
-- ==== Proof.Region1.lean ====
/-
  Layer 2 as one array. Each of the ten grid points takes five thousand consecutive rows of the aggregated array,
  scales each row by its normalisation entry, adds the bias row, clips below at zero, multiplies by the weight matrix
  and scales the result row again; the ten blocks tile the fifty thousand rows.
-/
import proofs.«120668_j1683627180254_2_alg».proof.Proof.Gen.KernelIdeal.Frame
import proofs.«120668_j1683627180254_2_alg».proof.Proof.Body

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row r, column j: the clipped, scaled and shifted row r of the aggregated array times column j of the weights,
    scaled by the row's normalisation entry. -/
def G (a : S50000x128.Idx → EReal) (d : S50000x1.Idx → EReal) (b : S1x128.Idx → EReal) (w : S128x128.Idx → EReal) :
    S50000x128.Idx → EReal :=
  fun i => (∑ k : Fin 128, max (a (ix2 (i 0) k) * d (ix2 (i 0) (0 : Fin 1)) + b (ix2 (0 : Fin 1) k)) (Ideal.ofBits .f32 0x00000000#32)
      * w (ix2 k (i 1))) * d (ix2 (i 0) (0 : Fin 1))

/-- The body's stored value at a block index. -/
theorem pay_at (v0 : Vec Ideal S5000x128 .f32) (v2 : Vec Ideal S5000x1 .f32) (v6 : Vec Ideal S1x128 .f32)
    (v13 : Vec Ideal S128x128 .bf16) (v16 : Vec Ideal S5000x1 .f32) (y : S5000x128.Idx) :
    k1_pay1 (F := Ideal) v0 v2 v6 v13 v16 y
      = (∑ k : Fin 128, max (v0 (ix2 (y 0) k) * v2 (ix2 (y 0) (0 : Fin 1)) + v6 (ix2 (0 : Fin 1) k)) (Ideal.ofBits .f32 0x00000000#32)
          * v13 (ix2 k (y 1))) * v16 (ix2 (y 0) (0 : Fin 1)) :=
  (congrArg (k1_pay1 (F := Ideal) v0 v2 v6 v13 v16) (eq_ix2 y)).trans (Body.pay1_apply v0 v2 v6 v13 v16 (y 0) (y 1))

/-- The index maps over the ten points: rows move with the point, columns stay; the bias and the weights are whole. -/
theorem idx_facts : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- What point t writes back is block t of the layer's array of the arrays as the region finds them. -/
theorem flushed_eq (c : Dev nD) (t : Fin cfg1.N) :
    (dat1 V c).flushed 4 t = ((cfg1.win 4).blk t).view.read (Elt Ideal) (G (V c main_v30) (V c main_v31) (V c main_v32) (V c main_v17)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz,
    View.ld_unit_zero (S := S1x128) hz]
  obtain ⟨e40, e41, e00, e01, e10, e11, e20, e21, e30, e31⟩ := idx_facts t
  funext j
  refine (pay_at (iblk1 V c 0 t) (iblk1 V c 1 t) (iblk1 V c 2 t) (iblk1 V c 3 t) (iblk1 V c 1 t) j).trans ?_
  show _ = G (V c main_v30) (V c main_v31) (V c main_v32) (V c main_v17) (((cfg1.win 4).blk t).view.emb j)
  have hj0 : (j 0).val < 5000 := (j 0).isLt
  have hj1 : (j 1).val < 128 := (j 1).isLt
  have h0 : ∀ k : Fin 128, iblk1 V c 0 t (ix2 (j 0) k)
      = (V c main_v30 : S50000x128.Idx → EReal) (ix2 ((((cfg1.win 4).blk t).view.emb j) 0) k) := by
    intro k
    show (V c main_v30 : S50000x128.Idx → EReal) (((cfg1.win 0).blk t).view.emb (ix2 (j 0) k)) = _
    refine congrArg _ ?_
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have h1 : iblk1 V c 1 t (ix2 (j 0) (0 : Fin 1))
      = (V c main_v31 : S50000x1.Idx → EReal) (ix2 ((((cfg1.win 4).blk t).view.emb j) 0) (0 : Fin 1)) := by
    show (V c main_v31 : S50000x1.Idx → EReal) (((cfg1.win 1).blk t).view.emb (ix2 (j 0) (0 : Fin 1))) = _
    refine congrArg _ ?_
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  have h2 : ∀ k : Fin 128, iblk1 V c 2 t (ix2 (0 : Fin 1) k) = (V c main_v32 : S1x128.Idx → EReal) (ix2 (0 : Fin 1) k) := by
    intro k
    show (V c main_v32 : S1x128.Idx → EReal) (((cfg1.win 2).blk t).view.emb (ix2 (0 : Fin 1) k)) = _
    refine congrArg _ ?_
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, iblk1 V c 3 t (ix2 k (j 1))
      = (V c main_v17 : S128x128.Idx → EReal) (ix2 k ((((cfg1.win 4).blk t).view.emb j) 1)) := by
    intro k
    show (V c main_v17 : S128x128.Idx → EReal) (((cfg1.win 3).blk t).view.emb (ix2 k (j 1))) = _
    refine congrArg _ ?_
    funext a; apply Fin.ext
    match a with
    | ⟨0, _⟩ => show win1_3.index t (0 : Fin 2) * 128 + 1 * k.val = k.val; omega
    | ⟨1, _⟩ => show win1_3.index t (1 : Fin 2) * 128 + 1 * (j 1).val = win1_4.index t (1 : Fin 2) * 128 + 1 * (j 1).val; omega
  simp only [G, h0, h1, h2, h3]

/-- An index of the array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v33).slice (win1_4.rect t)).set ↔ _
  rw [View.set_slice_whole, Rect.mem_set_unit]
  exact Iff.rfl

/-- Every row is in some point's block. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  refine ⟨⟨(i 0).val / 5000, by show (i 0).val / 5000 < 10; omega⟩, flush1_4 _, ?_⟩
  rw [mem_blk]
  obtain ⟨e40, e41, -⟩ := idx_facts ⟨(i 0).val / 5000, by show (i 0).val / 5000 < 10; omega⟩
  intro a
  match a with
  | ⟨0, _⟩ =>
    show win1_4.index _ (0 : Fin 2) * 5000 ≤ (i 0).val ∧ (i 0).val < win1_4.index _ (0 : Fin 2) * 5000 + 5000
    rw [e40]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e41]; omega

/-- The output array after the region. -/
theorem final (c : Dev nD) : (dat1 V c).arrAt 4 cfg1.N = G (V c main_v30) (V c main_v31) (V c main_v32) (V c main_v17) :=
  (dat1 V c).arrAt_eq_of_cover 4 _ (fun t _ => flushed_eq V c t) cover

end Cert.KernelIdeal.Region1

end
-- ==== Proof.Region2.lean ====
/-
  Layer 3 as one array. Each of the ten grid points takes five thousand consecutive rows of the aggregated array,
  scales each row by its normalisation entry, adds the bias row, clips below at zero, multiplies by the weight matrix
  and scales the result row again; the ten blocks tile the fifty thousand rows.
-/
import proofs.«120668_j1683627180254_2_alg».proof.Proof.Gen.KernelIdeal.Frame
import proofs.«120668_j1683627180254_2_alg».proof.Proof.Body

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row r, column j: the clipped, scaled and shifted row r of the aggregated array times column j of the weights,
    scaled by the row's normalisation entry. -/
def G (a : S50000x128.Idx → EReal) (d : S50000x1.Idx → EReal) (b : S1x128.Idx → EReal) (w : S128x40.Idx → EReal) :
    S50000x40.Idx → EReal :=
  fun i => (∑ k : Fin 128, max (a (ix2 (i 0) k) * d (ix2 (i 0) (0 : Fin 1)) + b (ix2 (0 : Fin 1) k)) (Ideal.ofBits .f32 0x00000000#32)
      * w (ix2 k (i 1))) * d (ix2 (i 0) (0 : Fin 1))

/-- The body's stored value at a block index. -/
theorem pay_at (v0 : Vec Ideal S5000x128 .f32) (v2 : Vec Ideal S5000x1 .f32) (v6 : Vec Ideal S1x128 .f32)
    (v13 : Vec Ideal S128x40 .bf16) (v16 : Vec Ideal S5000x1 .f32) (y : S5000x40.Idx) :
    k2_pay1 (F := Ideal) v0 v2 v6 v13 v16 y
      = (∑ k : Fin 128, max (v0 (ix2 (y 0) k) * v2 (ix2 (y 0) (0 : Fin 1)) + v6 (ix2 (0 : Fin 1) k)) (Ideal.ofBits .f32 0x00000000#32)
          * v13 (ix2 k (y 1))) * v16 (ix2 (y 0) (0 : Fin 1)) :=
  (congrArg (k2_pay1 (F := Ideal) v0 v2 v6 v13 v16) (eq_ix2 y)).trans (Body.pay2_apply v0 v2 v6 v13 v16 (y 0) (y 1))

/-- The index maps over the ten points: rows move with the point, columns stay; the bias and the weights are whole. -/
theorem idx_facts : ∀ t : Fin cfg2.N, win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What point t writes back is block t of the layer's array of the arrays as the region finds them. -/
theorem flushed_eq (c : Dev nD) (t : Fin cfg2.N) :
    (dat2 V c).flushed 4 t = ((cfg2.win 4).blk t).view.read (Elt Ideal) (G (V c main_v43) (V c main_v44) (V c main_v45) (V c main_v18)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x40) hz, View.ld_unit_zero (S := S5000x1) hz,
    View.ld_unit_zero (S := S1x128) hz]
  obtain ⟨e40, e41, e00, e01, e10, e11, e20, e21, e30, e31⟩ := idx_facts t
  funext j
  refine (pay_at (iblk2 V c 0 t) (iblk2 V c 1 t) (iblk2 V c 2 t) (iblk2 V c 3 t) (iblk2 V c 1 t) j).trans ?_
  show _ = G (V c main_v43) (V c main_v44) (V c main_v45) (V c main_v18) (((cfg2.win 4).blk t).view.emb j)
  have hj0 : (j 0).val < 5000 := (j 0).isLt
  have hj1 : (j 1).val < 40 := (j 1).isLt
  have h0 : ∀ k : Fin 128, iblk2 V c 0 t (ix2 (j 0) k)
      = (V c main_v43 : S50000x128.Idx → EReal) (ix2 ((((cfg2.win 4).blk t).view.emb j) 0) k) := by
    intro k
    show (V c main_v43 : S50000x128.Idx → EReal) (((cfg2.win 0).blk t).view.emb (ix2 (j 0) k)) = _
    refine congrArg _ ?_
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  have h1 : iblk2 V c 1 t (ix2 (j 0) (0 : Fin 1))
      = (V c main_v44 : S50000x1.Idx → EReal) (ix2 ((((cfg2.win 4).blk t).view.emb j) 0) (0 : Fin 1)) := by
    show (V c main_v44 : S50000x1.Idx → EReal) (((cfg2.win 1).blk t).view.emb (ix2 (j 0) (0 : Fin 1))) = _
    refine congrArg _ ?_
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 1 + 1 * 0 = 0; omega
  have h2 : ∀ k : Fin 128, iblk2 V c 2 t (ix2 (0 : Fin 1) k) = (V c main_v45 : S1x128.Idx → EReal) (ix2 (0 : Fin 1) k) := by
    intro k
    show (V c main_v45 : S1x128.Idx → EReal) (((cfg2.win 2).blk t).view.emb (ix2 (0 : Fin 1) k)) = _
    refine congrArg _ ?_
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have h3 : ∀ k : Fin 128, iblk2 V c 3 t (ix2 k (j 1))
      = (V c main_v18 : S128x40.Idx → EReal) (ix2 k ((((cfg2.win 4).blk t).view.emb j) 1)) := by
    intro k
    show (V c main_v18 : S128x40.Idx → EReal) (((cfg2.win 3).blk t).view.emb (ix2 k (j 1))) = _
    refine congrArg _ ?_
    funext a; apply Fin.ext
    match a with
    | ⟨0, _⟩ => show win2_3.index t (0 : Fin 2) * 128 + 1 * k.val = k.val; omega
    | ⟨1, _⟩ => show win2_3.index t (1 : Fin 2) * 40 + 1 * (j 1).val = win2_4.index t (1 : Fin 2) * 40 + 1 * (j 1).val; omega
  simp only [G, h0, h1, h2, h3]

/-- An index of the array is in point t's block iff each coordinate is in the block's range on its axis. -/
theorem mem_blk (t : Fin cfg2.N) (i : S50000x40.Idx) :
    i ∈ ((cfg2.win 4).blk t).view.set ↔ ∀ a : Fin 2, win2_4.index t a * S5000x40.size a ≤ (i a).val ∧ (i a).val < win2_4.index t a * S5000x40.size a + S5000x40.size a := by
  show i ∈ ((View.whole main_v46).slice (win2_4.rect t)).set ↔ _
  rw [View.set_slice_whole, Rect.mem_set_unit]
  exact Iff.rfl

/-- Every row is in some point's block. -/
theorem cover (i : S50000x40.Idx) : ∃ t : Fin cfg2.N, (cfg2.win 4).flush t = true ∧ i ∈ ((cfg2.win 4).blk t).view.set := by
  have hi0 : (i 0).val < 50000 := (i 0).isLt
  have hi1 : (i 1).val < 40 := (i 1).isLt
  refine ⟨⟨(i 0).val / 5000, by show (i 0).val / 5000 < 10; omega⟩, flush2_4 _, ?_⟩
  rw [mem_blk]
  obtain ⟨e40, e41, -⟩ := idx_facts ⟨(i 0).val / 5000, by show (i 0).val / 5000 < 10; omega⟩
  intro a
  match a with
  | ⟨0, _⟩ =>
    show win2_4.index _ (0 : Fin 2) * 5000 ≤ (i 0).val ∧ (i 0).val < win2_4.index _ (0 : Fin 2) * 5000 + 5000
    rw [e40]; show (i 0).val / 5000 * 5000 ≤ (i 0).val ∧ (i 0).val < (i 0).val / 5000 * 5000 + 5000; omega
  | ⟨1, _⟩ =>
    show win2_4.index _ (1 : Fin 2) * 40 ≤ (i 1).val ∧ (i 1).val < win2_4.index _ (1 : Fin 2) * 40 + 40
    rw [e41]; omega

/-- The output array after the region. -/
theorem final (c : Dev nD) : (dat2 V c).arrAt 4 cfg2.N = G (V c main_v43) (V c main_v44) (V c main_v45) (V c main_v18) :=
  (dat2 V c).arrAt_eq_of_cover 4 _ (fun t _ => flushed_eq V c t) cover

end Cert.KernelIdeal.Region2

end
-- ==== Proof.Region3.lean ====
/-
  The last region as one array. Each of the ten grid points takes five thousand consecutive rows of the last
  aggregation, scales each row by its normalisation entry and adds the bias row; each row then loses its largest
  entry and the logarithm of the sum of the exponentials of what is left: the row's log-softmax.
-/
import proofs.«120668_j1683627180254_2_alg».proof.Proof.Gen.KernelIdeal.Frame
import proofs.«120668_j1683627180254_2_alg».proof.Proof.Body

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry j of row n, scaled by the row's normalisation entry and shifted by the bias. -/
def lg (a : S50000x40.Idx → EReal) (d : S50000x1.Idx → EReal) (b : S1x40.Idx → EReal) (n : Fin 50000) (j : Fin 40) : EReal :=
  a (ix2 n j) * d (ix2 n (0 : Fin 1)) + b (ix2 (0 : Fin 1) j)

/-- The largest such entry of row n, as the fold of max from the lowest value. -/
def mx (a : S50000x40.Idx → EReal) (d : S50000x1.Idx → EReal) (b : S1x40.Idx → EReal) (n : Fin 50000) : EReal :=
  (Finset.univ : Finset (Fin 40)).fold max (Ideal.ofBits .f32 0xFF800000#32) (lg a d b n)

/-- The log-softmax of the scaled and shifted rows. -/
def G (a : S50000x40.Idx → EReal) (d : S50000x1.Idx → EReal) (b : S1x40.Idx → EReal) : S50000x40.Idx → EReal :=
  fun i => (lg a d b (i 0) (i 1) - mx a d b (i 0)) - Ideal.log (∑ j : Fin 40, Ideal.exp (lg a d b (i 0) j - mx a d b (i 0)))

/-- The body's stored value at a block index. -/
theorem pay_at (v0 : Vec Ideal S5000x40 .f32) (v2 : Vec Ideal S5000x1 .f32) (v6 : Vec Ideal S1x40 .f32) (y : S5000x40.Idx) :
    k3_pay1 (F := Ideal) v0 v2 v6 y
      = (Body.logit v0 v2 v6 (y 0) (y 1) - Body.rowMax v0 v2 v6 (y 0))
        - Ideal.log (∑ j : Fin 40, Ideal.exp (Body.logit v0 v2 v6 (y 0) j - Body.rowMax v0 v2 v6 (y 0))) :=
  (congrArg (k3_pay1 (F := Ideal) v0 v2 v6) (eq_ix2 y)).trans (Body.pay3_apply v0 v2 v6 (y 0) (y 1))

/-- The index maps over the ten points: rows move with the point, columns stay; the bias row is whole. -/
theorem idx_facts : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- What point t writes back is block t of the log-softmax array of the arrays as the region finds them. -/
theorem flushed_eq (c : Dev nD) (t : Fin cfg3.N) :
    (dat3 V c).flushed 3 t = ((cfg3.win 3).blk t).view.read (Elt Ideal) (G (V c main_v56) (V c main_v57) (V c main_v58)) := by
  show (cfg3.win 3).cut (grid3.coords t) ((dat3 V c).after 3 t) = _
  rw [after3_3]
  unfold out3_3
  rw [View.canon_unit_zero hz]
  simp only [View.ld_unit_zero (S := S5000x40) hz, View.ld_unit_zero (S := S5000x1) hz, View.ld_unit_zero (S := S1x40) hz]
  obtain ⟨e30, e31, e00, e01, e10, e11, e20, e21⟩ := idx_facts t
  funext j
  refine (pay_at (iblk3 V c 0 t) (iblk3 V c 1 t) (iblk3 V c 2 t) j).trans ?_
  show _ = G (V c main_v56) (V c main_v57) (V c main_v58) (((cfg3.win 3).blk t).view.emb j)
  have hj0 : (j 0).val < 5000 := (j 0).isLt
  have hj1 : (j 1).val < 40 := (j 1).isLt
  have h0 : ∀ k : Fin 40, iblk3 V c 0 t (ix2 (j 0) k)
      = (V c main_v56 : S50000x40.Idx → EReal) (ix2 ((((cfg3.win 3).blk t).view.emb j) 0) k) := by
    intro k
    show (V c main_v56 : S50000x40.Idx → EReal) (((cfg3.win 0).blk t).view.emb (ix2 (j 0) k)) = _
    refine congrArg _ ?_
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 40 + 1 * k.val = k.val; omega
  have h1 : iblk3 V c 1 t (ix2 (j 0) (0 : Fin 1))
      = (V c main_v57 : S50000x1.Idx → EReal) (ix2 ((((cfg3.win 3).blk t).view.emb j) 0) (0 : Fin 1)) := by
    show (V c main_v57 : S50000x1.Idx → EReal) (((cfg3.win 1).blk t).view.emb (ix2 (j 0) (0 : Fin 1))) = _
    refine congrArg _ ?_
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  have h2 : ∀ k : Fin 40, iblk3 V c 2 t (ix2 (0 : Fin 1) k) = (V c main_v58 : S1x40.Idx → EReal) (ix2 (0 : Fin 1) k) := by
    intro k
    show (V c main_v58 : S1x40.Idx → EReal) (((cfg3.win 2).blk t).view.emb (ix2 (0 : Fin 1) k)) = _
    refine congrArg _ ?_
    funext a; apply Fin.ext
    match a with
    | ⟨0, _⟩ => show win3_2.index t (0 : Fin 2) * 1 + 1 * 0 = 0; omega
    | ⟨1, _⟩ => show win3_2.index t (1 : Fin 2) * 40 + 1 * k.val = k.val; omega
  have hcol : (((cfg3.win 3).blk t).view.emb j) 1 = j 1 := by
    apply Fin.ext
    show win3_3.index t (1 : Fin 2) * 40 + 1 * (j 1).val = (j 1).val; omega
  have hl : Body.logit (iblk3 V c 0 t) (iblk3 V c 1 t) (iblk3 V c 2 t) (j 0)
      = lg (V c main_v56) (V c main_v57) (V c main_v58) ((((cfg3.win 3).blk t).view.emb j) 0) := by
    funext k
    unfold Body.logit lg
    rw [h0 k, h1, h2 k]
  simp only [G, mx, Body.rowMax, hl, hcol]

/-- An index of the array is in point t's block iff each coordinate is in the block's range on its axis. -/
theorem mem_blk (t : Fin cfg3.N) (i : S50000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v59).slice (win3_3.rect t)).set ↔ _
  rw [View.set_slice_whole, Rect.mem_set_unit]
  exact Iff.rfl

/-- Every row is in some point's block. -/
theorem cover (i : S50000x40.Idx) : ∃ t : Fin cfg3.N, (cfg3.win 3).flush t = true ∧ i ∈ ((cfg3.win 3).blk t).view.set := by
  have hi0 : (i 0).val < 50000 := (i 0).isLt
  have hi1 : (i 1).val < 40 := (i 1).isLt
  refine ⟨⟨(i 0).val / 5000, by show (i 0).val / 5000 < 10; omega⟩, flush3_3 _, ?_⟩
  rw [mem_blk]
  obtain ⟨e30, e31, -⟩ := idx_facts ⟨(i 0).val / 5000, by show (i 0).val / 5000 < 10; omega⟩
  intro a
  match a with
  | ⟨0, _⟩ =>
    show win3_3.index _ (0 : Fin 2) * 5000 ≤ (i 0).val ∧ (i 0).val < win3_3.index _ (0 : Fin 2) * 5000 + 5000
    rw [e30]; show (i 0).val / 5000 * 5000 ≤ (i 0).val ∧ (i 0).val < (i 0).val / 5000 * 5000 + 5000; omega
  | ⟨1, _⟩ =>
    show win3_3.index _ (1 : Fin 2) * 40 ≤ (i 1).val ∧ (i 1).val < win3_3.index _ (1 : Fin 2) * 40 + 40
    rw [e31]; omega

/-- The output array after the region. -/
theorem final (c : Dev nD) : (dat3 V c).arrAt 3 cfg3.N = G (V c main_v56) (V c main_v57) (V c main_v58) :=
  (dat3 V c).arrAt_eq_of_cover 3 _ (fun t _ => flushed_eq V c t) cover

end Cert.KernelIdeal.Region3

end
-- ==== Proof.KSpec.lean ====
/-
  The whole computation of the kernel program as one function of the launch arguments: the source and destination row
  numbers (the edge list with one self loop per node appended), the degree and normalisation vectors, the gather of a
  layer's rows by source added into their destination rows, and the four regions' arrays composed.
-/
import proofs.«120668_j1683627180254_2_alg».proof.Proof.Gen.KernelIdeal.Frame
import proofs.«120668_j1683627180254_2_alg».proof.Proof.Region0
import proofs.«120668_j1683627180254_2_alg».proof.Proof.Region1
import proofs.«120668_j1683627180254_2_alg».proof.Proof.Region2
import proofs.«120668_j1683627180254_2_alg».proof.Proof.Region3

set_option maxRecDepth 16384

noncomputable section

namespace Cert.KernelIdeal.KSpec

open Cert.KernelIdeal Cert.KernelIdeal.Gen Idealize.ShloMosaic Idealize.ShloMosaic.TcCoe

/-- Source row numbers: the edge list's first row, then 0 … N − 1. -/
def srcRaw (x1 : IVec S2x800000 32) : IVec S850000 32 :=
  concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0

/-- Destination row numbers: the edge list's second row, then 0 … N − 1. -/
def dstRaw (x1 : IVec S2x800000 32) : IVec S850000 32 :=
  concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0

/-- The destination numbers as a one-column index array. -/
def dstI (x1 : IVec S2x800000 32) : IVec S850000x1 32 :=
  broadcastInDim S850000x1 ![0] bcast_S850000_S850000x1_0 (dstRaw x1)

/-- The degree of each node: ones added into the destination rows. -/
def deg (x1 : IVec S2x800000 32) : FVec Ideal S50000 .f32 :=
  Host.scatterAdd scatter_S50000_S850000x1_S850000_n_0_0_1 (broadcastInDim S50000 ![] bcast_S_S50000 (constant S_ .f32 0x00000000#32))
    (dstI x1) (broadcastInDim S850000 ![] bcast_S_S850000 (constant S_ .f32 0x3F800000#32))

/-- The normalisation vector: degree to the power minus one half where the degree is positive, zero elsewhere. -/
def dinv (x1 : IVec S2x800000 32) : FVec Ideal S50000 .f32 :=
  select (cmpf .ogt (deg x1) (broadcastInDim S50000 ![] bcast_S_S50000 (constant S_ .f32 0x00000000#32)))
    (Host.powf (deg x1) (broadcastInDim S50000 ![] bcast_S_S50000 (constant S_ .f32 0xBF000000#32)))
    (broadcastInDim S50000 ![] bcast_S_S50000 (id (constant S_ .f32 0x00000000#32)))

/-- The normalisation vector as a column. -/
def dcol (x1 : IVec S2x800000 32) : FVec Ideal S50000x1 .f32 := shapeCast S50000x1 (dinv x1) shapeCasts_S50000_S50000x1

/-- The source numbers with negative ones wrapped by the number of nodes, as a one-column index array. -/
def srcI (x1 : IVec S2x800000 32) : IVec S850000x1 32 :=
  broadcastInDim S850000x1 ![0] bcast_S850000_S850000x1_0
    (select (cmpi .slt (srcRaw x1) (broadcastInDim S850000 ![] bcast_S_S850000 (constantI S_ 32 0#32)))
      (addi (srcRaw x1) (broadcastInDim S850000 ![] bcast_S_S850000 (constantI S_ 32 50000#32))) (srcRaw x1))

/-- Rows gathered by source and added into their destination rows, 128 columns. -/
def agg128 (x1 : IVec S2x800000 32) (H : FVec Ideal S50000x128 .f32) : FVec Ideal S50000x128 .f32 :=
  Host.scatterAdd scatter_S50000x128_S850000x1_S850000x128_1_0_0_1 (broadcastInDim S50000x128 ![] bcast_S_S50000x128 (constant S_ .f32 0x00000000#32))
    (dstI x1) (Host.gather gather_S50000x128_S850000x1_S850000x128_1_0_n_n_0_1_1128 H (srcI x1))

/-- The same, 40 columns. -/
def agg40 (x1 : IVec S2x800000 32) (H : FVec Ideal S50000x40 .f32) : FVec Ideal S50000x40 .f32 :=
  Host.scatterAdd scatter_S50000x40_S850000x1_S850000x40_1_0_0_1 (broadcastInDim S50000x40 ![] bcast_S_S50000x40 (constant S_ .f32 0x00000000#32))
    (dstI x1) (Host.gather gather_S50000x40_S850000x1_S850000x40_1_0_n_n_0_1_140 H (srcI x1))

/-- The first region's output: the scaled product of the features with the first weights. -/
def hw1 (x0 : FVec Ideal S50000x128 .f32) (x1 : IVec S2x800000 32) (x2 : FVec Ideal S128x128 .f32) : FVec Ideal S50000x128 .f32 :=
  Region0.G x0 (dcol x1) (truncf .bf16 x2 bitsLt_bf16_f32)

/-- The second region's output. -/
def hw2 (x0 : FVec Ideal S50000x128 .f32) (x1 : IVec S2x800000 32) (x2 : FVec Ideal S128x128 .f32) (x3 : FVec Ideal S128 .f32)
    (x4 : FVec Ideal S128x128 .f32) : FVec Ideal S50000x128 .f32 :=
  Region1.G (agg128 x1 (hw1 x0 x1 x2)) (dcol x1) (shapeCast S1x128 x3 shapeCasts_S128_S1x128) (truncf .bf16 x4 bitsLt_bf16_f32)

/-- The third region's output. -/
def hw3 (x0 : FVec Ideal S50000x128 .f32) (x1 : IVec S2x800000 32) (x2 : FVec Ideal S128x128 .f32) (x3 : FVec Ideal S128 .f32)
    (x4 : FVec Ideal S128x128 .f32) (x5 : FVec Ideal S128 .f32) (x6 : FVec Ideal S128x40 .f32) : FVec Ideal S50000x40 .f32 :=
  Region2.G (agg128 x1 (hw2 x0 x1 x2 x3 x4)) (dcol x1) (shapeCast S1x128 x5 shapeCasts_S128_S1x128) (truncf .bf16 x6 bitsLt_bf16_f32)

/-- The result: the log-softmax of the last aggregation, scaled and shifted. -/
def out (x0 : FVec Ideal S50000x128 .f32) (x1 : IVec S2x800000 32) (x2 : FVec Ideal S128x128 .f32) (x3 : FVec Ideal S128 .f32)
    (x4 : FVec Ideal S128x128 .f32) (x5 : FVec Ideal S128 .f32) (x6 : FVec Ideal S128x40 .f32) (x7 : FVec Ideal S40 .f32) :
    FVec Ideal S50000x40 .f32 :=
  Region3.G (agg40 x1 (hw3 x0 x1 x2 x3 x4 x5 x6)) (dcol x1) (shapeCast S1x40 x7 shapeCasts_S40_S1x40)

end Cert.KernelIdeal.KSpec

end
-- ==== Proof.HostK.lean ====
/-
  The arrays the four regions and the host stretches between them find and leave, as functions of the launch arguments.
  The source and destination row numbers and the normalisation vector are computed once, before the first region, and
  read again by every later stretch; each stretch between two regions gathers the previous region's rows by source,
  adds them into their destination rows, and reshapes the normalisation vector and the bias for the next region.
-/
import proofs.«120668_j1683627180254_2_alg».proof.Proof.Gen.KernelIdeal.Frame
import proofs.«120668_j1683627180254_2_alg».proof.Proof.KSpec

set_option maxRecDepth 16384
set_option maxHeartbeats 8000000

noncomputable section

namespace Cert.KernelIdeal.HostK

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- Launch argument 0 on core c. -/
abbrev arg0 := m ((c : Thread nD τ).loc main_arg0)
/-- Launch argument 1 on core c. -/
abbrev arg1 := m ((c : Thread nD τ).loc main_arg1)
/-- Launch argument 2 on core c. -/
abbrev arg2 := m ((c : Thread nD τ).loc main_arg2)
/-- Launch argument 3 on core c. -/
abbrev arg3 := m ((c : Thread nD τ).loc main_arg3)
/-- Launch argument 4 on core c. -/
abbrev arg4 := m ((c : Thread nD τ).loc main_arg4)
/-- Launch argument 5 on core c. -/
abbrev arg5 := m ((c : Thread nD τ).loc main_arg5)
/-- Launch argument 6 on core c. -/
abbrev arg6 := m ((c : Thread nD τ).loc main_arg6)
/-- Launch argument 7 on core c. -/
abbrev arg7 := m ((c : Thread nD τ).loc main_arg7)

/-- A buffer that none of a stretch's operations writes keeps its contents. -/
macro "skip_ops" : tactic => `(tactic|
  exact StableHlo.after_of_forall_not_mem _ _ (List.forall_iff_forall_mem.mp (by
    simp only [hostOps0, hostOps0_1, hostOps0_2, hostOps1, hostOps2, hostOps3, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

theorem W3_arg0 : W3 m ρ c (Proc.devRef .tc main_arg0) = (arg0 m c) := by
  show StableHlo.after hostOps0_2 (StableHlo.after hostOps0_1 (StableHlo.after hostOps0 (W0 m ρ c))) (Proc.devRef .tc main_arg0) = _
  dsimp only [hostOps0, hostOps0_1, hostOps0_2]
  after_results
  try rfl

/-- What the first stretch leaves in the three inputs of the guarded select. -/
theorem W1_v12 : W1 m ρ c (Proc.devRef .tc main_v12)
    = cmpf .ogt (KSpec.deg (arg1 m c)) (broadcastInDim S50000 ![] bcast_S_S50000 (constant S_ .f32 0x00000000#32)) := by
  show StableHlo.after hostOps0 (W0 m ρ c) (Proc.devRef .tc main_v12) = _
  dsimp only [hostOps0]
  after_results
  try rfl

theorem W1_v14 : W1 m ρ c (Proc.devRef .tc main_v14)
    = Host.powf (KSpec.deg (arg1 m c)) (broadcastInDim S50000 ![] bcast_S_S50000 (constant S_ .f32 0xBF000000#32)) := by
  show StableHlo.after hostOps0 (W0 m ρ c) (Proc.devRef .tc main_v14) = _
  dsimp only [hostOps0]
  after_results
  try rfl

theorem W1_cst_3 : W1 m ρ c (Proc.devRef .tc main_cst_3) = (constant S_ .f32 0x00000000#32 : FVec Ideal S_ .f32) := by
  show StableHlo.after hostOps0 (W0 m ρ c) (Proc.devRef .tc main_cst_3) = _
  dsimp only [hostOps0]
  after_results
  try rfl

/-- A typed unary operation at references whose types are read off the references is the plain one. -/
theorem tref_unary (x y : Ref sig .tc) (f : x.ty.Contents (Elt Ideal) → y.ty.Contents (Elt Ideal))
    (dx : x.space ≠ .host) (ux : x.isScoped = false) (dy : y.space ≠ .host) (uy : y.isScoped = false) :
    TRef.unary (τ := τ) (TRef.of (T := x.ty) x rfl dx ux) (TRef.of (T := y.ty) y rfl dy uy) f
      = StableHlo.unary x y f ⟨dx, ux⟩ ⟨dy, uy⟩ := rfl

/-- The same for a ternary operation. -/
theorem tref_ternary (a b d y : Ref sig .tc)
    (f : a.ty.Contents (Elt Ideal) → b.ty.Contents (Elt Ideal) → d.ty.Contents (Elt Ideal) → y.ty.Contents (Elt Ideal))
    (da : a.space ≠ .host) (ua : a.isScoped = false) (db : b.space ≠ .host) (ub : b.isScoped = false)
    (dd : d.space ≠ .host) (ud : d.isScoped = false) (dy : y.space ≠ .host) (uy : y.isScoped = false) :
    TRef.ternary (τ := τ) (TRef.of (T := a.ty) a rfl da ua) (TRef.of (T := b.ty) b rfl db ub) (TRef.of (T := d.ty) d rfl dd ud)
        (TRef.of (T := y.ty) y rfl dy uy) f
      = StableHlo.ternary a b d y f ⟨da, ua⟩ ⟨db, ub⟩ ⟨dd, ud⟩ ⟨dy, uy⟩ := rfl

/-- The three operations of the guarded select, as plain operations. -/
theorem hostOps0_1_plain : (hostOps0_1 : List (HloOp τ sig (Elt Ideal)))
    = [ StableHlo.unary main_cst_3 main_call0_v0 (id : (⟨S_, .f32⟩ : BufTy).Contents (Elt Ideal) → (⟨S_, .f32⟩ : BufTy).Contents (Elt Ideal)) ⟨by decide, rfl⟩ ⟨by decide, rfl⟩,
        StableHlo.unary main_call0_v0 main_call0_v1 (broadcastInDim S50000 ![] bcast_S_S50000 : (⟨S_, .f32⟩ : BufTy).Contents (Elt Ideal) → (⟨S50000, .f32⟩ : BufTy).Contents (Elt Ideal)) ⟨by decide, rfl⟩ ⟨by decide, rfl⟩,
        StableHlo.ternary main_v12 main_v14 main_call0_v1 main_v15 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ⟨by decide, rfl⟩ ⟨by decide, rfl⟩ ⟨by decide, rfl⟩ ⟨by decide, rfl⟩ ] :=
  congrArg₂ List.cons (tref_unary _ _ _ _ _ _ _)
    (congrArg₂ List.cons (tref_unary _ _ _ _ _ _ _)
    (congrArg₂ List.cons (tref_ternary _ _ _ _ _ _ _ _ _ _ _ _ _) rfl))

/-- The guarded select over those three: the normalisation vector. -/
theorem W2_v15 : W2 m ρ c (Proc.devRef .tc main_v15) = KSpec.dinv (arg1 m c) := by
  have h12 := W1_v12 m ρ c
  have h14 := W1_v14 m ρ c
  have hc3 := W1_cst_3 m ρ c
  show StableHlo.after hostOps0_1 (W1 m ρ c) (Proc.devRef .tc main_v15) = _
  generalize W1 m ρ c = U at h12 h14 hc3 ⊢
  rw [hostOps0_1_plain]
  after_results
  rw [h12, h14, hc3]
  rfl

theorem W3_v15 : W3 m ρ c (Proc.devRef .tc main_v15) = KSpec.dinv (arg1 m c) :=
  (show StableHlo.after hostOps0_2 (W2 m ρ c) (Proc.devRef .tc main_v15) = W2 m ρ c (Proc.devRef .tc main_v15) by skip_ops).trans
    (W2_v15 m ρ c)

theorem W3_v19 : W3 m ρ c (Proc.devRef .tc main_v19) = KSpec.dcol (arg1 m c) := by
  have h15 := W2_v15 m ρ c
  show StableHlo.after hostOps0_2 (W2 m ρ c) (Proc.devRef .tc main_v19) = _
  generalize W2 m ρ c = U at h15 ⊢
  dsimp only [hostOps0_2]
  after_results
  rw [h15]
  rfl

theorem W3_v16 : W3 m ρ c (Proc.devRef .tc main_v16) = (truncf .bf16 (arg2 m c) bitsLt_bf16_f32 : FVec Ideal S128x128 .bf16) := by
  show StableHlo.after hostOps0_2 (StableHlo.after hostOps0_1 (StableHlo.after hostOps0 (W0 m ρ c))) (Proc.devRef .tc main_v16) = _
  dsimp only [hostOps0, hostOps0_1, hostOps0_2]
  after_results
  try rfl

theorem W3_v17 : W3 m ρ c (Proc.devRef .tc main_v17) = (truncf .bf16 (arg4 m c) bitsLt_bf16_f32 : FVec Ideal S128x128 .bf16) := by
  show StableHlo.after hostOps0_2 (StableHlo.after hostOps0_1 (StableHlo.after hostOps0 (W0 m ρ c))) (Proc.devRef .tc main_v17) = _
  dsimp only [hostOps0, hostOps0_1, hostOps0_2]
  after_results
  try rfl

theorem W3_v18 : W3 m ρ c (Proc.devRef .tc main_v18) = (truncf .bf16 (arg6 m c) bitsLt_bf16_f32 : FVec Ideal S128x40 .bf16) := by
  show StableHlo.after hostOps0_2 (StableHlo.after hostOps0_1 (StableHlo.after hostOps0 (W0 m ρ c))) (Proc.devRef .tc main_v18) = _
  dsimp only [hostOps0, hostOps0_1, hostOps0_2]
  after_results
  try rfl

theorem W3_v3 : W3 m ρ c (Proc.devRef .tc main_v3) = KSpec.srcRaw (arg1 m c) := by
  show StableHlo.after hostOps0_2 (StableHlo.after hostOps0_1 (StableHlo.after hostOps0 (W0 m ρ c))) (Proc.devRef .tc main_v3) = _
  dsimp only [hostOps0, hostOps0_1, hostOps0_2]
  after_results
  try rfl

theorem W3_v6 : W3 m ρ c (Proc.devRef .tc main_v6) = KSpec.dstRaw (arg1 m c) := by
  show StableHlo.after hostOps0_2 (StableHlo.after hostOps0_1 (StableHlo.after hostOps0 (W0 m ρ c))) (Proc.devRef .tc main_v6) = _
  dsimp only [hostOps0, hostOps0_1, hostOps0_2]
  after_results
  try rfl

theorem W3_arg3 : W3 m ρ c (Proc.devRef .tc main_arg3) = (arg3 m c) := by
  show StableHlo.after hostOps0_2 (StableHlo.after hostOps0_1 (StableHlo.after hostOps0 (W0 m ρ c))) (Proc.devRef .tc main_arg3) = _
  dsimp only [hostOps0, hostOps0_1, hostOps0_2]
  after_results
  try rfl

theorem W3_arg5 : W3 m ρ c (Proc.devRef .tc main_arg5) = (arg5 m c) := by
  show StableHlo.after hostOps0_2 (StableHlo.after hostOps0_1 (StableHlo.after hostOps0 (W0 m ρ c))) (Proc.devRef .tc main_arg5) = _
  dsimp only [hostOps0, hostOps0_1, hostOps0_2]
  after_results
  try rfl

theorem W3_arg7 : W3 m ρ c (Proc.devRef .tc main_arg7) = (arg7 m c) := by
  show StableHlo.after hostOps0_2 (StableHlo.after hostOps0_1 (StableHlo.after hostOps0 (W0 m ρ c))) (Proc.devRef .tc main_arg7) = _
  dsimp only [hostOps0, hostOps0_1, hostOps0_2]
  after_results
  try rfl

theorem W4_v20 : W4 m ρ c (Proc.devRef .tc main_v20) = KSpec.hw1 (arg0 m c) (arg1 m c) (arg2 m c) :=
  (W4_arr m ρ c 3).trans ((Region0.final (V3 m ρ) c).trans (by
    show Region0.G (W3 m ρ c (Proc.devRef .tc main_arg0)) (W3 m ρ c (Proc.devRef .tc main_v19)) (W3 m ρ c (Proc.devRef .tc main_v16)) = _
    rw [W3_arg0, W3_v19, W3_v16]; rfl))

theorem W4_v17 : W4 m ρ c (Proc.devRef .tc main_v17) = (truncf .bf16 (arg4 m c) bitsLt_bf16_f32 : FVec Ideal S128x128 .bf16) := (W4_of_ne m ρ c main_v17 (by decide)).trans (W3_v17 m ρ c)

theorem W4_v18 : W4 m ρ c (Proc.devRef .tc main_v18) = (truncf .bf16 (arg6 m c) bitsLt_bf16_f32 : FVec Ideal S128x40 .bf16) := (W4_of_ne m ρ c main_v18 (by decide)).trans (W3_v18 m ρ c)

theorem W4_v3 : W4 m ρ c (Proc.devRef .tc main_v3) = KSpec.srcRaw (arg1 m c) := (W4_of_ne m ρ c main_v3 (by decide)).trans (W3_v3 m ρ c)

theorem W4_v6 : W4 m ρ c (Proc.devRef .tc main_v6) = KSpec.dstRaw (arg1 m c) := (W4_of_ne m ρ c main_v6 (by decide)).trans (W3_v6 m ρ c)

theorem W4_v15 : W4 m ρ c (Proc.devRef .tc main_v15) = KSpec.dinv (arg1 m c) := (W4_of_ne m ρ c main_v15 (by decide)).trans (W3_v15 m ρ c)

theorem W4_arg3 : W4 m ρ c (Proc.devRef .tc main_arg3) = (arg3 m c) := (W4_of_ne m ρ c main_arg3 (by decide)).trans (W3_arg3 m ρ c)

theorem W4_arg5 : W4 m ρ c (Proc.devRef .tc main_arg5) = (arg5 m c) := (W4_of_ne m ρ c main_arg5 (by decide)).trans (W3_arg5 m ρ c)

theorem W4_arg7 : W4 m ρ c (Proc.devRef .tc main_arg7) = (arg7 m c) := (W4_of_ne m ρ c main_arg7 (by decide)).trans (W3_arg7 m ρ c)

theorem W5_v30 : W5 m ρ c (Proc.devRef .tc main_v30) = KSpec.agg128 (arg1 m c) (KSpec.hw1 (arg0 m c) (arg1 m c) (arg2 m c)) := by
  show StableHlo.after hostOps1 (W4 m ρ c) (Proc.devRef .tc main_v30) = _
  dsimp only [hostOps1]
  after_results
  rw [W4_v3 m ρ c, W4_v6 m ρ c, W4_v20 m ρ c]
  try rfl

theorem W5_v31 : W5 m ρ c (Proc.devRef .tc main_v31) = KSpec.dcol (arg1 m c) := by
  show StableHlo.after hostOps1 (W4 m ρ c) (Proc.devRef .tc main_v31) = _
  dsimp only [hostOps1]
  after_results
  rw [W4_v15 m ρ c]
  try rfl

theorem W5_v32 : W5 m ρ c (Proc.devRef .tc main_v32) = (shapeCast S1x128 (arg3 m c) shapeCasts_S128_S1x128 : FVec Ideal S1x128 .f32) := by
  show StableHlo.after hostOps1 (W4 m ρ c) (Proc.devRef .tc main_v32) = _
  dsimp only [hostOps1]
  after_results
  rw [W4_arg3 m ρ c]
  try rfl

theorem W5_v17 : W5 m ρ c (Proc.devRef .tc main_v17) = (truncf .bf16 (arg4 m c) bitsLt_bf16_f32 : FVec Ideal S128x128 .bf16) :=
  (show StableHlo.after hostOps1 (W4 m ρ c) (Proc.devRef .tc main_v17) = W4 m ρ c (Proc.devRef .tc main_v17) by skip_ops).trans (W4_v17 m ρ c)

theorem W5_v18 : W5 m ρ c (Proc.devRef .tc main_v18) = (truncf .bf16 (arg6 m c) bitsLt_bf16_f32 : FVec Ideal S128x40 .bf16) :=
  (show StableHlo.after hostOps1 (W4 m ρ c) (Proc.devRef .tc main_v18) = W4 m ρ c (Proc.devRef .tc main_v18) by skip_ops).trans (W4_v18 m ρ c)

theorem W5_v3 : W5 m ρ c (Proc.devRef .tc main_v3) = KSpec.srcRaw (arg1 m c) :=
  (show StableHlo.after hostOps1 (W4 m ρ c) (Proc.devRef .tc main_v3) = W4 m ρ c (Proc.devRef .tc main_v3) by skip_ops).trans (W4_v3 m ρ c)

theorem W5_v6 : W5 m ρ c (Proc.devRef .tc main_v6) = KSpec.dstRaw (arg1 m c) :=
  (show StableHlo.after hostOps1 (W4 m ρ c) (Proc.devRef .tc main_v6) = W4 m ρ c (Proc.devRef .tc main_v6) by skip_ops).trans (W4_v6 m ρ c)

theorem W5_v15 : W5 m ρ c (Proc.devRef .tc main_v15) = KSpec.dinv (arg1 m c) :=
  (show StableHlo.after hostOps1 (W4 m ρ c) (Proc.devRef .tc main_v15) = W4 m ρ c (Proc.devRef .tc main_v15) by skip_ops).trans (W4_v15 m ρ c)

theorem W5_arg5 : W5 m ρ c (Proc.devRef .tc main_arg5) = (arg5 m c) :=
  (show StableHlo.after hostOps1 (W4 m ρ c) (Proc.devRef .tc main_arg5) = W4 m ρ c (Proc.devRef .tc main_arg5) by skip_ops).trans (W4_arg5 m ρ c)

theorem W5_arg7 : W5 m ρ c (Proc.devRef .tc main_arg7) = (arg7 m c) :=
  (show StableHlo.after hostOps1 (W4 m ρ c) (Proc.devRef .tc main_arg7) = W4 m ρ c (Proc.devRef .tc main_arg7) by skip_ops).trans (W4_arg7 m ρ c)

theorem W6_v33 : W6 m ρ c (Proc.devRef .tc main_v33) = KSpec.hw2 (arg0 m c) (arg1 m c) (arg2 m c) (arg3 m c) (arg4 m c) :=
  (W6_arr m ρ c 4).trans ((Region1.final (V5 m ρ) c).trans (by
    show Region1.G (W5 m ρ c (Proc.devRef .tc main_v30)) (W5 m ρ c (Proc.devRef .tc main_v31)) (W5 m ρ c (Proc.devRef .tc main_v32)) (W5 m ρ c (Proc.devRef .tc main_v17)) = _
    rw [W5_v30, W5_v31, W5_v32, W5_v17]; rfl))

theorem W6_v18 : W6 m ρ c (Proc.devRef .tc main_v18) = (truncf .bf16 (arg6 m c) bitsLt_bf16_f32 : FVec Ideal S128x40 .bf16) := (W6_of_ne m ρ c main_v18 (by decide)).trans (W5_v18 m ρ c)

theorem W6_v3 : W6 m ρ c (Proc.devRef .tc main_v3) = KSpec.srcRaw (arg1 m c) := (W6_of_ne m ρ c main_v3 (by decide)).trans (W5_v3 m ρ c)

theorem W6_v6 : W6 m ρ c (Proc.devRef .tc main_v6) = KSpec.dstRaw (arg1 m c) := (W6_of_ne m ρ c main_v6 (by decide)).trans (W5_v6 m ρ c)

theorem W6_v15 : W6 m ρ c (Proc.devRef .tc main_v15) = KSpec.dinv (arg1 m c) := (W6_of_ne m ρ c main_v15 (by decide)).trans (W5_v15 m ρ c)

theorem W6_arg5 : W6 m ρ c (Proc.devRef .tc main_arg5) = (arg5 m c) := (W6_of_ne m ρ c main_arg5 (by decide)).trans (W5_arg5 m ρ c)

theorem W6_arg7 : W6 m ρ c (Proc.devRef .tc main_arg7) = (arg7 m c) := (W6_of_ne m ρ c main_arg7 (by decide)).trans (W5_arg7 m ρ c)

theorem W7_v43 : W7 m ρ c (Proc.devRef .tc main_v43) = KSpec.agg128 (arg1 m c) (KSpec.hw2 (arg0 m c) (arg1 m c) (arg2 m c) (arg3 m c) (arg4 m c)) := by
  show StableHlo.after hostOps2 (W6 m ρ c) (Proc.devRef .tc main_v43) = _
  dsimp only [hostOps2]
  after_results
  rw [W6_v3 m ρ c, W6_v6 m ρ c, W6_v33 m ρ c]
  try rfl

theorem W7_v44 : W7 m ρ c (Proc.devRef .tc main_v44) = KSpec.dcol (arg1 m c) := by
  show StableHlo.after hostOps2 (W6 m ρ c) (Proc.devRef .tc main_v44) = _
  dsimp only [hostOps2]
  after_results
  rw [W6_v15 m ρ c]
  try rfl

theorem W7_v45 : W7 m ρ c (Proc.devRef .tc main_v45) = (shapeCast S1x128 (arg5 m c) shapeCasts_S128_S1x128 : FVec Ideal S1x128 .f32) := by
  show StableHlo.after hostOps2 (W6 m ρ c) (Proc.devRef .tc main_v45) = _
  dsimp only [hostOps2]
  after_results
  rw [W6_arg5 m ρ c]
  try rfl

theorem W7_v18 : W7 m ρ c (Proc.devRef .tc main_v18) = (truncf .bf16 (arg6 m c) bitsLt_bf16_f32 : FVec Ideal S128x40 .bf16) :=
  (show StableHlo.after hostOps2 (W6 m ρ c) (Proc.devRef .tc main_v18) = W6 m ρ c (Proc.devRef .tc main_v18) by skip_ops).trans (W6_v18 m ρ c)

theorem W7_v3 : W7 m ρ c (Proc.devRef .tc main_v3) = KSpec.srcRaw (arg1 m c) :=
  (show StableHlo.after hostOps2 (W6 m ρ c) (Proc.devRef .tc main_v3) = W6 m ρ c (Proc.devRef .tc main_v3) by skip_ops).trans (W6_v3 m ρ c)

theorem W7_v6 : W7 m ρ c (Proc.devRef .tc main_v6) = KSpec.dstRaw (arg1 m c) :=
  (show StableHlo.after hostOps2 (W6 m ρ c) (Proc.devRef .tc main_v6) = W6 m ρ c (Proc.devRef .tc main_v6) by skip_ops).trans (W6_v6 m ρ c)

theorem W7_v15 : W7 m ρ c (Proc.devRef .tc main_v15) = KSpec.dinv (arg1 m c) :=
  (show StableHlo.after hostOps2 (W6 m ρ c) (Proc.devRef .tc main_v15) = W6 m ρ c (Proc.devRef .tc main_v15) by skip_ops).trans (W6_v15 m ρ c)

theorem W7_arg7 : W7 m ρ c (Proc.devRef .tc main_arg7) = (arg7 m c) :=
  (show StableHlo.after hostOps2 (W6 m ρ c) (Proc.devRef .tc main_arg7) = W6 m ρ c (Proc.devRef .tc main_arg7) by skip_ops).trans (W6_arg7 m ρ c)

theorem W8_v46 : W8 m ρ c (Proc.devRef .tc main_v46) = KSpec.hw3 (arg0 m c) (arg1 m c) (arg2 m c) (arg3 m c) (arg4 m c) (arg5 m c) (arg6 m c) :=
  (W8_arr m ρ c 4).trans ((Region2.final (V7 m ρ) c).trans (by
    show Region2.G (W7 m ρ c (Proc.devRef .tc main_v43)) (W7 m ρ c (Proc.devRef .tc main_v44)) (W7 m ρ c (Proc.devRef .tc main_v45)) (W7 m ρ c (Proc.devRef .tc main_v18)) = _
    rw [W7_v43, W7_v44, W7_v45, W7_v18]; rfl))

theorem W8_v3 : W8 m ρ c (Proc.devRef .tc main_v3) = KSpec.srcRaw (arg1 m c) := (W8_of_ne m ρ c main_v3 (by decide)).trans (W7_v3 m ρ c)

theorem W8_v6 : W8 m ρ c (Proc.devRef .tc main_v6) = KSpec.dstRaw (arg1 m c) := (W8_of_ne m ρ c main_v6 (by decide)).trans (W7_v6 m ρ c)

theorem W8_v15 : W8 m ρ c (Proc.devRef .tc main_v15) = KSpec.dinv (arg1 m c) := (W8_of_ne m ρ c main_v15 (by decide)).trans (W7_v15 m ρ c)

theorem W8_arg7 : W8 m ρ c (Proc.devRef .tc main_arg7) = (arg7 m c) := (W8_of_ne m ρ c main_arg7 (by decide)).trans (W7_arg7 m ρ c)

theorem W9_v56 : W9 m ρ c (Proc.devRef .tc main_v56) = KSpec.agg40 (arg1 m c) (KSpec.hw3 (arg0 m c) (arg1 m c) (arg2 m c) (arg3 m c) (arg4 m c) (arg5 m c) (arg6 m c)) := by
  show StableHlo.after hostOps3 (W8 m ρ c) (Proc.devRef .tc main_v56) = _
  dsimp only [hostOps3]
  after_results
  rw [W8_v3 m ρ c, W8_v6 m ρ c, W8_v46 m ρ c]
  try rfl

theorem W9_v57 : W9 m ρ c (Proc.devRef .tc main_v57) = KSpec.dcol (arg1 m c) := by
  show StableHlo.after hostOps3 (W8 m ρ c) (Proc.devRef .tc main_v57) = _
  dsimp only [hostOps3]
  after_results
  rw [W8_v15 m ρ c]
  try rfl

theorem W9_v58 : W9 m ρ c (Proc.devRef .tc main_v58) = (shapeCast S1x40 (arg7 m c) shapeCasts_S40_S1x40 : FVec Ideal S1x40 .f32) := by
  show StableHlo.after hostOps3 (W8 m ρ c) (Proc.devRef .tc main_v58) = _
  dsimp only [hostOps3]
  after_results
  rw [W8_arg7 m ρ c]
  try rfl

/-- The result buffer after the last region: the whole computation as one function of the launch arguments. -/
theorem W10_v59 : W10 m ρ c (Proc.devRef .tc main_v59) = KSpec.out (arg0 m c) (arg1 m c) (arg2 m c) (arg3 m c) (arg4 m c) (arg5 m c) (arg6 m c) (arg7 m c) :=
  (W10_arr m ρ c 3).trans ((Region3.final (V9 m ρ) c).trans (by
    show Region3.G (W9 m ρ c (Proc.devRef .tc main_v56)) (W9 m ρ c (Proc.devRef .tc main_v57)) (W9 m ρ c (Proc.devRef .tc main_v58)) = _
    rw [W9_v56, W9_v57, W9_v58]; rfl))

end Cert.KernelIdeal.HostK

end
-- ==== Proof.RefValue.lean ====
/- The run of the reference @main read at its result: on every device the result buffer `main_v84` ends at the read
   module's last stage function `Read.val_main_v84` of the eight arguments' launch contents, and the arguments are unchanged.

   The run module gives every buffer's final contents as the fold `after ops` of the 123 operations over the launch
   contents. The fold is not evaluated in one piece: the list is cut into six consecutive stretches, each stretch is
   evaluated over ARBITRARY contents of the buffers it reads, and the stretches are chained, the stage functions of the read
   module being defined each from its predecessors exactly as the operations are. -/
import proofs.«120668_j1683627180254_2_alg».proof.Proof.RefRun
import proofs.«120668_j1683627180254_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- The fold over a concatenation is the fold over the second list from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## An inlined call's operations as plain operations

The operations of an inlined call are printed over typed references (`TRef.of`), whose builders move the function along
the equation between the buffer's type and the stated one. At a reference whose stated type is the buffer's own, that
equation is `rfl` and the operation is the plain builder's. -/

theorem tref_nullary (y : Ref sig .tc) (v : y.ty.Contents (Elt F)) (dy : y.space ≠ .host) (uy : y.isScoped = false) :
    TRef.nullary (τ := τ) (TRef.of (T := y.ty) y rfl dy uy) v = StableHlo.nullary y v ⟨dy, uy⟩ := rfl

theorem tref_unary (x y : Ref sig .tc) (f : x.ty.Contents (Elt F) → y.ty.Contents (Elt F))
    (dx : x.space ≠ .host) (ux : x.isScoped = false) (dy : y.space ≠ .host) (uy : y.isScoped = false) :
    TRef.unary (τ := τ) (TRef.of (T := x.ty) x rfl dx ux) (TRef.of (T := y.ty) y rfl dy uy) f
      = StableHlo.unary x y f ⟨dx, ux⟩ ⟨dy, uy⟩ := rfl

theorem tref_binary (a b y : Ref sig .tc) (f : a.ty.Contents (Elt F) → b.ty.Contents (Elt F) → y.ty.Contents (Elt F))
    (da : a.space ≠ .host) (ua : a.isScoped = false) (db : b.space ≠ .host) (ub : b.isScoped = false)
    (dy : y.space ≠ .host) (uy : y.isScoped = false) :
    TRef.binary (τ := τ) (TRef.of (T := a.ty) a rfl da ua) (TRef.of (T := b.ty) b rfl db ub) (TRef.of (T := y.ty) y rfl dy uy) f
      = StableHlo.binary a b y f ⟨da, ua⟩ ⟨db, ub⟩ ⟨dy, uy⟩ := rfl

/-! ## The operation list in six consecutive stretches

The reference is a three-layer graph convolution followed by a row-wise log-softmax. Its 123 operations are cut where the
mathematics changes subject; each stretch reads a few buffers of what came before and leaves one value (stretch A: three)
that later stretches read. Stretches C, D and F end in, or are, an inlined call (the positive part; the log-softmax): each
is given as printed (`tC`, `tD`, `tF`) and with the call's operations as plain operations (`sC`, `sD`, `sF`), and the
two lists are equal element by element. -/

/-- Stretch A (operations 1–23). The edge list with a self loop appended at every node — `main_v3` the 850000 source ids,
    `main_v6` the 850000 destination ids —, the degree of every node (ones summed into the destinations) and `main_v15`,
    the degree to the power −1/2 where the degree is positive, zero elsewhere. -/
abbrev sA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0xBF000000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (Host.powf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v14) (TRef.of (T := ⟨S50000, .f32⟩) main_call0_v1) (TRef.of (T := ⟨S50000, .f32⟩) main_v15) select ]

/-- Stretch B (operations 24–42). The weight of every edge, `main_v30`: the degree^(−1/2) of its source times that of its
    destination, each read at the node id (a negative id wrapped by the node count). -/
abbrev sB : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]

/-- Stretch C (operations 43–65), as printed. The first layer, `main_v48`: the features times the first weight matrix, read at
    every edge's source, scaled by the edge's weight, summed into the edge's destination, plus the bias row; then the
    positive part. -/
abbrev tC : List (HloOp τ sig (Elt F)) :=
  [ binary main_arg0 main_arg2 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x128 ![0, 1] bcast_S850000x1_S850000x128_0_1 : (⟨S850000x1, .f32⟩ : BufTy).Contents (Elt F) → (⟨S850000x128, .f32⟩ : BufTy).Contents (Elt F)),
    binary main_v38 main_v40 main_v41 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v42 (broadcastInDim S50000x128 ![] bcast_S_S50000x128 : (⟨S_, .f32⟩ : BufTy).Contents (Elt F) → (⟨S50000x128, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v47) (TRef.of (T := ⟨S50000x128, .f32⟩) main_call1_v0) (TRef.of (T := ⟨S50000x128, .f32⟩) main_v48) maximumf ]

/-- Stretch C with the positive part's three operations as plain operations. -/
abbrev sC : List (HloOp τ sig (Elt F)) :=
  [ binary main_arg0 main_arg2 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x128 ![0, 1] bcast_S850000x1_S850000x128_0_1 : (⟨S850000x1, .f32⟩ : BufTy).Contents (Elt F) → (⟨S850000x128, .f32⟩ : BufTy).Contents (Elt F)),
    binary main_v38 main_v40 main_v41 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v42 (broadcastInDim S50000x128 ![] bcast_S_S50000x128 : (⟨S_, .f32⟩ : BufTy).Contents (Elt F) → (⟨S50000x128, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32 : (⟨S_, .f32⟩ : BufTy).Contents (Elt F)),
    unary main_call1_cst main_call1_v0 (broadcastInDim S50000x128 ![] bcast_S_S50000x128 : (⟨S_, .f32⟩ : BufTy).Contents (Elt F) → (⟨S50000x128, .f32⟩ : BufTy).Contents (Elt F)),
    binary main_v47 main_call1_v0 main_v48 (maximumf : (⟨S50000x128, .f32⟩ : BufTy).Contents (Elt F) → (⟨S50000x128, .f32⟩ : BufTy).Contents (Elt F) → (⟨S50000x128, .f32⟩ : BufTy).Contents (Elt F)) ]

set_option maxRecDepth 8192 in
theorem tC_eq : tC (F := F) = sC :=
  (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons (tref_nullary _ _ _ _)
    (congrArg₂ List.cons (tref_unary _ _ _ _ _ _ _)
    (congrArg₂ List.cons (tref_binary _ _ _ _ _ _ _ _ _ _)
    rfl)))))))))))))))))))))))

/-- Stretch D (operations 66–88), as printed. The second layer, `main_v66`: the same from `main_v48` with the second weights
    and bias. -/
abbrev tD : List (HloOp τ sig (Elt F)) :=
  [ binary main_v48 main_arg4 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v50 (broadcastInDim S850000 ![] bcast_S_S850000 : (⟨S_, .i32⟩ : BufTy).Contents (Elt F) → (⟨S850000, .i32⟩ : BufTy).Contents (Elt F)),
    binary main_v3 main_v50 main_v51 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v52 (broadcastInDim S850000 ![] bcast_S_S850000 : (⟨S_, .i32⟩ : BufTy).Contents (Elt F) → (⟨S850000, .i32⟩ : BufTy).Contents (Elt F)),
    binary main_v3 main_v52 main_v53 (addi : (⟨S850000, .i32⟩ : BufTy).Contents (Elt F) → (⟨S850000, .i32⟩ : BufTy).Contents (Elt F) → (⟨S850000, .i32⟩ : BufTy).Contents (Elt F)),
    ternary main_v51 main_v53 main_v3 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v54 main_v55 (broadcastInDim S850000x1 ![0] bcast_S850000_S850000x1_0 : (⟨S850000, .i32⟩ : BufTy).Contents (Elt F) → (⟨S850000x1, .i32⟩ : BufTy).Contents (Elt F)),
    binary main_v49 main_v55 main_v56 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v57 (broadcastInDim S850000x1 ![0] bcast_S850000_S850000x1_0 : (⟨S850000, .f32⟩ : BufTy).Contents (Elt F) → (⟨S850000x1, .f32⟩ : BufTy).Contents (Elt F)),
    unary main_v57 main_v58 (broadcastInDim S850000x128 ![0, 1] bcast_S850000x1_S850000x128_0_1 : (⟨S850000x1, .f32⟩ : BufTy).Contents (Elt F) → (⟨S850000x128, .f32⟩ : BufTy).Contents (Elt F)),
    binary main_v56 main_v58 main_v59 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v60 (broadcastInDim S50000x128 ![] bcast_S_S50000x128 : (⟨S_, .f32⟩ : BufTy).Contents (Elt F) → (⟨S50000x128, .f32⟩ : BufTy).Contents (Elt F)),
    unary main_v6 main_v61 (broadcastInDim S850000x1 ![0] bcast_S850000_S850000x1_0 : (⟨S850000, .i32⟩ : BufTy).Contents (Elt F) → (⟨S850000x1, .i32⟩ : BufTy).Contents (Elt F)),
    ternary main_v60 main_v61 main_v59 main_v62 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v65) (TRef.of (T := ⟨S50000x128, .f32⟩) main_call2_v0) (TRef.of (T := ⟨S50000x128, .f32⟩) main_v66) maximumf ]

/-- Stretch D with the positive part's three operations as plain operations. -/
abbrev sD : List (HloOp τ sig (Elt F)) :=
  [ binary main_v48 main_arg4 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v50 (broadcastInDim S850000 ![] bcast_S_S850000 : (⟨S_, .i32⟩ : BufTy).Contents (Elt F) → (⟨S850000, .i32⟩ : BufTy).Contents (Elt F)),
    binary main_v3 main_v50 main_v51 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v52 (broadcastInDim S850000 ![] bcast_S_S850000 : (⟨S_, .i32⟩ : BufTy).Contents (Elt F) → (⟨S850000, .i32⟩ : BufTy).Contents (Elt F)),
    binary main_v3 main_v52 main_v53 (addi : (⟨S850000, .i32⟩ : BufTy).Contents (Elt F) → (⟨S850000, .i32⟩ : BufTy).Contents (Elt F) → (⟨S850000, .i32⟩ : BufTy).Contents (Elt F)),
    ternary main_v51 main_v53 main_v3 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v54 main_v55 (broadcastInDim S850000x1 ![0] bcast_S850000_S850000x1_0 : (⟨S850000, .i32⟩ : BufTy).Contents (Elt F) → (⟨S850000x1, .i32⟩ : BufTy).Contents (Elt F)),
    binary main_v49 main_v55 main_v56 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v57 (broadcastInDim S850000x1 ![0] bcast_S850000_S850000x1_0 : (⟨S850000, .f32⟩ : BufTy).Contents (Elt F) → (⟨S850000x1, .f32⟩ : BufTy).Contents (Elt F)),
    unary main_v57 main_v58 (broadcastInDim S850000x128 ![0, 1] bcast_S850000x1_S850000x128_0_1 : (⟨S850000x1, .f32⟩ : BufTy).Contents (Elt F) → (⟨S850000x128, .f32⟩ : BufTy).Contents (Elt F)),
    binary main_v56 main_v58 main_v59 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v60 (broadcastInDim S50000x128 ![] bcast_S_S50000x128 : (⟨S_, .f32⟩ : BufTy).Contents (Elt F) → (⟨S50000x128, .f32⟩ : BufTy).Contents (Elt F)),
    unary main_v6 main_v61 (broadcastInDim S850000x1 ![0] bcast_S850000_S850000x1_0 : (⟨S850000, .i32⟩ : BufTy).Contents (Elt F) → (⟨S850000x1, .i32⟩ : BufTy).Contents (Elt F)),
    ternary main_v60 main_v61 main_v59 main_v62 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)),
    nullary main_call2_cst (constant S_ .f32 0x00000000#32 : (⟨S_, .f32⟩ : BufTy).Contents (Elt F)),
    unary main_call2_cst main_call2_v0 (broadcastInDim S50000x128 ![] bcast_S_S50000x128 : (⟨S_, .f32⟩ : BufTy).Contents (Elt F) → (⟨S50000x128, .f32⟩ : BufTy).Contents (Elt F)),
    binary main_v65 main_call2_v0 main_v66 (maximumf : (⟨S50000x128, .f32⟩ : BufTy).Contents (Elt F) → (⟨S50000x128, .f32⟩ : BufTy).Contents (Elt F) → (⟨S50000x128, .f32⟩ : BufTy).Contents (Elt F)) ]

set_option maxRecDepth 8192 in
theorem tD_eq : tD (F := F) = sD :=
  (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons (tref_nullary _ _ _ _)
    (congrArg₂ List.cons (tref_unary _ _ _ _ _ _ _)
    (congrArg₂ List.cons (tref_binary _ _ _ _ _ _ _ _ _ _)
    rfl)))))))))))))))))))))))

/-- Stretch E (operations 89–108). The third layer, `main_v83`: the same from `main_v66` with the third weights (128 → 40
    columns) and bias, without the positive part. -/
abbrev sE : List (HloOp τ sig (Elt F)) :=
  [ binary main_v66 main_arg6 main_v67 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_c_13 (constantI S_ 32 0#32),
    unary main_c_13 main_v68 (broadcastInDim S850000 ![] bcast_S_S850000 : (⟨S_, .i32⟩ : BufTy).Contents (Elt F) → (⟨S850000, .i32⟩ : BufTy).Contents (Elt F)),
    binary main_v3 main_v68 main_v69 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v70 (broadcastInDim S850000 ![] bcast_S_S850000 : (⟨S_, .i32⟩ : BufTy).Contents (Elt F) → (⟨S850000, .i32⟩ : BufTy).Contents (Elt F)),
    binary main_v3 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v67 main_v73 main_v74 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v30 main_v75 (broadcastInDim S850000x1 ![0] bcast_S850000_S850000x1_0 : (⟨S850000, .f32⟩ : BufTy).Contents (Elt F) → (⟨S850000x1, .f32⟩ : BufTy).Contents (Elt F)),
    unary main_v75 main_v76 (broadcastInDim S850000x40 ![0, 1] bcast_S850000x1_S850000x40_0_1 : (⟨S850000x1, .f32⟩ : BufTy).Contents (Elt F) → (⟨S850000x40, .f32⟩ : BufTy).Contents (Elt F)),
    binary main_v74 main_v76 main_v77 (mulf : (⟨S850000x40, .f32⟩ : BufTy).Contents (Elt F) → (⟨S850000x40, .f32⟩ : BufTy).Contents (Elt F) → (⟨S850000x40, .f32⟩ : BufTy).Contents (Elt F)),
    nullary main_cst_15 (constant S_ .f32 0x00000000#32),
    unary main_cst_15 main_v78 (broadcastInDim S50000x40 ![] bcast_S_S50000x40 : (⟨S_, .f32⟩ : BufTy).Contents (Elt F) → (⟨S50000x40, .f32⟩ : BufTy).Contents (Elt F)),
    unary main_v6 main_v79 (broadcastInDim S850000x1 ![0] bcast_S850000_S850000x1_0 : (⟨S850000, .i32⟩ : BufTy).Contents (Elt F) → (⟨S850000x1, .i32⟩ : BufTy).Contents (Elt F)),
    ternary main_v78 main_v79 main_v77 main_v80 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg7 main_v81 (broadcastInDim S1x40 ![1] bcast_S40_S1x40_1 : (⟨S40, .f32⟩ : BufTy).Contents (Elt F) → (⟨S1x40, .f32⟩ : BufTy).Contents (Elt F)),
    unary main_v81 main_v82 (broadcastInDim S50000x40 ![0, 1] bcast_S1x40_S50000x40_0_1 : (⟨S1x40, .f32⟩ : BufTy).Contents (Elt F) → (⟨S50000x40, .f32⟩ : BufTy).Contents (Elt F)),
    binary main_v80 main_v82 main_v83 (addf : (⟨S50000x40, .f32⟩ : BufTy).Contents (Elt F) → (⟨S50000x40, .f32⟩ : BufTy).Contents (Elt F) → (⟨S50000x40, .f32⟩ : BufTy).Contents (Elt F)) ]

/-- Stretch F (operations 109–123), as printed. The row-wise log-softmax of `main_v83`, `main_v84`: every row minus its
    maximum, minus the logarithm of the row's sum of exponentials of that difference. -/
abbrev tF : List (HloOp τ sig (Elt F)) :=
  [ TRef.nullary (TRef.of (T := ⟨S_, .f32⟩) main_call3_cst) (constant S_ .f32 0xFF800000#32),
    TRef.binary (TRef.of (T := ⟨S50000x40, .f32⟩) main_v83) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v83) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v84) subf ]

/-- Stretch F as plain operations. -/
abbrev sF : List (HloOp τ sig (Elt F)) :=
  [ nullary main_call3_cst (constant S_ .f32 0xFF800000#32 : (⟨S_, .f32⟩ : BufTy).Contents (Elt F)),
    binary main_v83 main_call3_cst main_call3_v0 (fun x v => Host.reduce FloatOps.maximumf x v reducesTo_S50000x40_S50000_d1 h_S_ : (⟨S50000x40, .f32⟩ : BufTy).Contents (Elt F) → (⟨S_, .f32⟩ : BufTy).Contents (Elt F) → (⟨S50000, .f32⟩ : BufTy).Contents (Elt F)),
    nullary main_call3_cst_0 (constant S_ .f32 0xFF800000#32 : (⟨S_, .f32⟩ : BufTy).Contents (Elt F)),
    unary main_call3_cst_0 main_call3_v1 (broadcastInDim S50000 ![] bcast_S_S50000 : (⟨S_, .f32⟩ : BufTy).Contents (Elt F) → (⟨S50000, .f32⟩ : BufTy).Contents (Elt F)),
    binary main_call3_v1 main_call3_v0 main_call3_v2 (maximumf : (⟨S50000, .f32⟩ : BufTy).Contents (Elt F) → (⟨S50000, .f32⟩ : BufTy).Contents (Elt F) → (⟨S50000, .f32⟩ : BufTy).Contents (Elt F)),
    unary main_call3_v2 main_call3_v3 (broadcastInDim S50000x1 ![0] bcast_S50000_S50000x1_0 : (⟨S50000, .f32⟩ : BufTy).Contents (Elt F) → (⟨S50000x1, .f32⟩ : BufTy).Contents (Elt F)),
    unary main_call3_v3 main_call3_v4 (broadcastInDim S50000x40 ![0, 1] bcast_S50000x1_S50000x40_0_1 : (⟨S50000x1, .f32⟩ : BufTy).Contents (Elt F) → (⟨S50000x40, .f32⟩ : BufTy).Contents (Elt F)),
    binary main_v83 main_call3_v4 main_call3_v5 (subf : (⟨S50000x40, .f32⟩ : BufTy).Contents (Elt F) → (⟨S50000x40, .f32⟩ : BufTy).Contents (Elt F) → (⟨S50000x40, .f32⟩ : BufTy).Contents (Elt F)),
    unary main_call3_v5 main_call3_v6 (Host.exp : (⟨S50000x40, .f32⟩ : BufTy).Contents (Elt F) → (⟨S50000x40, .f32⟩ : BufTy).Contents (Elt F)),
    nullary main_call3_cst_1 (constant S_ .f32 0x00000000#32 : (⟨S_, .f32⟩ : BufTy).Contents (Elt F)),
    binary main_call3_v6 main_call3_cst_1 main_call3_v7 (fun x v => Host.reduceAdd x v reducesTo_S50000x40_S50000_d1 h_S_ : (⟨S50000x40, .f32⟩ : BufTy).Contents (Elt F) → (⟨S_, .f32⟩ : BufTy).Contents (Elt F) → (⟨S50000, .f32⟩ : BufTy).Contents (Elt F)),
    unary main_call3_v7 main_call3_v8 (broadcastInDim S50000x1 ![0] bcast_S50000_S50000x1_0 : (⟨S50000, .f32⟩ : BufTy).Contents (Elt F) → (⟨S50000x1, .f32⟩ : BufTy).Contents (Elt F)),
    unary main_call3_v8 main_call3_v9 (Host.log : (⟨S50000x1, .f32⟩ : BufTy).Contents (Elt F) → (⟨S50000x1, .f32⟩ : BufTy).Contents (Elt F)),
    unary main_call3_v9 main_call3_v10 (broadcastInDim S50000x40 ![0, 1] bcast_S50000x1_S50000x40_0_1 : (⟨S50000x1, .f32⟩ : BufTy).Contents (Elt F) → (⟨S50000x40, .f32⟩ : BufTy).Contents (Elt F)),
    binary main_call3_v5 main_call3_v10 main_v84 (subf : (⟨S50000x40, .f32⟩ : BufTy).Contents (Elt F) → (⟨S50000x40, .f32⟩ : BufTy).Contents (Elt F) → (⟨S50000x40, .f32⟩ : BufTy).Contents (Elt F)) ]

set_option maxRecDepth 8192 in
theorem tF_eq : tF (F := F) = sF :=
  (congrArg₂ List.cons (tref_nullary _ _ _ _)
    (congrArg₂ List.cons (tref_binary _ _ _ _ _ _ _ _ _ _)
    (congrArg₂ List.cons (tref_nullary _ _ _ _)
    (congrArg₂ List.cons (tref_unary _ _ _ _ _ _ _)
    (congrArg₂ List.cons (tref_binary _ _ _ _ _ _ _ _ _ _)
    (congrArg₂ List.cons (tref_unary _ _ _ _ _ _ _)
    (congrArg₂ List.cons (tref_unary _ _ _ _ _ _ _)
    (congrArg₂ List.cons (tref_binary _ _ _ _ _ _ _ _ _ _)
    (congrArg₂ List.cons (tref_unary _ _ _ _ _ _ _)
    (congrArg₂ List.cons (tref_nullary _ _ _ _)
    (congrArg₂ List.cons (tref_binary _ _ _ _ _ _ _ _ _ _)
    (congrArg₂ List.cons (tref_unary _ _ _ _ _ _ _)
    (congrArg₂ List.cons (tref_unary _ _ _ _ _ _ _)
    (congrArg₂ List.cons (tref_unary _ _ _ _ _ _ _)
    (congrArg₂ List.cons (tref_binary _ _ _ _ _ _ _ _ _ _)
    rfl)))))))))))))))

set_option maxRecDepth 8192 in
/-- The operation list is the six stretches in order. -/
theorem ops_split : ops (F := F) = sA ++ (sB ++ (sC ++ (sD ++ (sE ++ sF)))) := by
  have h : ops (F := F) = sA ++ (sB ++ (tC ++ (tD ++ (sE ++ tF)))) := rfl
  rw [h, tC_eq, tD_eq, tF_eq]

/-! ## The argument buffers

No operation writes an argument of @main. -/

/-- `W` holds in the eight argument buffers what `V` holds there. -/
structure ArgsKept (W V : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)

theorem ArgsKept.trans {W₂ W₁ V : Valuation τ sig (Elt F)} (h₂ : ArgsKept W₂ W₁) (h₁ : ArgsKept W₁ V) : ArgsKept W₂ V :=
  ⟨h₂.a0.trans h₁.a0, h₂.a1.trans h₁.a1, h₂.a2.trans h₁.a2, h₂.a3.trans h₁.a3, h₂.a4.trans h₁.a4, h₂.a5.trans h₁.a5, h₂.a6.trans h₁.a6, h₂.a7.trans h₁.a7⟩

set_option maxHeartbeats 4000000 in
theorem sA_args (V : Valuation τ sig (Elt F)) : ArgsKept (after (sA (F := F)) V) V := by
  constructor <;> after_results

set_option maxHeartbeats 4000000 in
theorem sB_args (V : Valuation τ sig (Elt F)) : ArgsKept (after (sB (F := F)) V) V := by
  constructor <;> after_results_simp

set_option maxHeartbeats 4000000 in
theorem sC_args (V : Valuation τ sig (Elt F)) : ArgsKept (after (sC (F := F)) V) V := by
  constructor <;> after_results_simp

set_option maxHeartbeats 4000000 in
theorem sD_args (V : Valuation τ sig (Elt F)) : ArgsKept (after (sD (F := F)) V) V := by
  constructor <;> after_results_simp

set_option maxHeartbeats 4000000 in
theorem sE_args (V : Valuation τ sig (Elt F)) : ArgsKept (after (sE (F := F)) V) V := by
  constructor <;> after_results_simp

set_option maxHeartbeats 4000000 in
theorem sF_args (V : Valuation τ sig (Elt F)) : ArgsKept (after (sF (F := F)) V) V := by
  constructor <;> after_results_simp

/-! ## What each stretch leaves

Each over any contents `V` (or `W`) of the buffers before the stretch; the value is the read module's stage function of
the arguments, given that the buffers the stretch reads hold the earlier stages. -/

set_option maxRecDepth 8192 in
set_option maxHeartbeats 4000000 in
/-- Stretch A leaves the source ids with the self loops in `main_v3`. -/
theorem sA_v3 (V : Valuation τ sig (Elt F)) :
    after (sA (F := F)) V (Proc.devRef .tc main_v3) = val_main_v3 (F := F) (V (Proc.devRef .tc main_arg1)) := by
  after_results
  rfl

set_option maxRecDepth 8192 in
set_option maxHeartbeats 4000000 in
/-- Stretch A leaves the destination ids with the self loops in `main_v6`. -/
theorem sA_v6 (V : Valuation τ sig (Elt F)) :
    after (sA (F := F)) V (Proc.devRef .tc main_v6) = val_main_v6 (F := F) (V (Proc.devRef .tc main_arg1)) := by
  after_results
  rfl

set_option maxRecDepth 8192 in
set_option maxHeartbeats 4000000 in
/-- Stretch A leaves the degree^(−1/2) vector in `main_v15`. -/
theorem sA_v15 (V : Valuation τ sig (Elt F)) :
    after (sA (F := F)) V (Proc.devRef .tc main_v15) = val_main_v15 (F := F) (V (Proc.devRef .tc main_arg1)) := by
  after_results
  rfl

set_option maxHeartbeats 4000000 in
/-- Stretch B writes none of `main_v3`, `main_v6`. -/
theorem sB_keeps (V : Valuation τ sig (Elt F)) :
    after (sB (F := F)) V (Proc.devRef .tc main_v3) = V (Proc.devRef .tc main_v3)
    ∧ after (sB (F := F)) V (Proc.devRef .tc main_v6) = V (Proc.devRef .tc main_v6) := by
  refine ⟨?_, ?_⟩ <;> after_results_simp

set_option maxRecDepth 8192 in
set_option maxHeartbeats 4000000 in
/-- Stretch B leaves the edge weights in `main_v30`. -/
theorem sB_v30 (W : Valuation τ sig (Elt F)) (x1 : (⟨S2x800000, .i32⟩ : BufTy).Contents (Elt F))
    (h3 : W (Proc.devRef .tc main_v3) = val_main_v3 (F := F) x1)
    (h6 : W (Proc.devRef .tc main_v6) = val_main_v6 (F := F) x1)
    (h15 : W (Proc.devRef .tc main_v15) = val_main_v15 (F := F) x1) :
    after (sB (F := F)) W (Proc.devRef .tc main_v30) = val_main_v30 (F := F) x1 := by
  after_results_simp
  simp only [h3, h6, h15]
  rfl

set_option maxHeartbeats 4000000 in
/-- Stretch C writes none of `main_v3`, `main_v6`, `main_v30`. -/
theorem sC_keeps (V : Valuation τ sig (Elt F)) :
    after (sC (F := F)) V (Proc.devRef .tc main_v3) = V (Proc.devRef .tc main_v3)
    ∧ after (sC (F := F)) V (Proc.devRef .tc main_v6) = V (Proc.devRef .tc main_v6)
    ∧ after (sC (F := F)) V (Proc.devRef .tc main_v30) = V (Proc.devRef .tc main_v30) := by
  refine ⟨?_, ?_, ?_⟩ <;> after_results_simp

set_option maxRecDepth 8192 in
set_option maxHeartbeats 4000000 in
/-- Stretch C leaves the first layer's output in `main_v48`. -/
theorem sC_v48 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F))
    (a0 : W (Proc.devRef .tc main_arg0) = x0)
    (a2 : W (Proc.devRef .tc main_arg2) = x2)
    (a3 : W (Proc.devRef .tc main_arg3) = x3)
    (h3 : W (Proc.devRef .tc main_v3) = val_main_v3 (F := F) x1)
    (h6 : W (Proc.devRef .tc main_v6) = val_main_v6 (F := F) x1)
    (h30 : W (Proc.devRef .tc main_v30) = val_main_v30 (F := F) x1) :
    after (sC (F := F)) W (Proc.devRef .tc main_v48) = val_main_v48 (F := F) x0 x1 x2 x3 := by
  after_results_simp
  simp only [a0, a2, a3, h3, h6, h30]
  rfl

set_option maxHeartbeats 4000000 in
/-- Stretch D writes none of `main_v3`, `main_v6`, `main_v30`. -/
theorem sD_keeps (V : Valuation τ sig (Elt F)) :
    after (sD (F := F)) V (Proc.devRef .tc main_v3) = V (Proc.devRef .tc main_v3)
    ∧ after (sD (F := F)) V (Proc.devRef .tc main_v6) = V (Proc.devRef .tc main_v6)
    ∧ after (sD (F := F)) V (Proc.devRef .tc main_v30) = V (Proc.devRef .tc main_v30) := by
  refine ⟨?_, ?_, ?_⟩ <;> after_results_simp

set_option maxRecDepth 8192 in
set_option maxHeartbeats 4000000 in
/-- Stretch D leaves the second layer's output in `main_v66`. -/
theorem sD_v66 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F))
    (a4 : W (Proc.devRef .tc main_arg4) = x4)
    (a5 : W (Proc.devRef .tc main_arg5) = x5)
    (h3 : W (Proc.devRef .tc main_v3) = val_main_v3 (F := F) x1)
    (h6 : W (Proc.devRef .tc main_v6) = val_main_v6 (F := F) x1)
    (h30 : W (Proc.devRef .tc main_v30) = val_main_v30 (F := F) x1)
    (h48 : W (Proc.devRef .tc main_v48) = val_main_v48 (F := F) x0 x1 x2 x3) :
    after (sD (F := F)) W (Proc.devRef .tc main_v66) = val_main_v66 (F := F) x0 x1 x2 x3 x4 x5 := by
  after_results_simp
  simp only [a4, a5, h3, h6, h30, h48]
  rfl

set_option maxRecDepth 8192 in
set_option maxHeartbeats 4000000 in
/-- Stretch E leaves the third layer's output in `main_v83`. -/
theorem sE_v83 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F))
    (a6 : W (Proc.devRef .tc main_arg6) = x6)
    (a7 : W (Proc.devRef .tc main_arg7) = x7)
    (h3 : W (Proc.devRef .tc main_v3) = val_main_v3 (F := F) x1)
    (h6 : W (Proc.devRef .tc main_v6) = val_main_v6 (F := F) x1)
    (h30 : W (Proc.devRef .tc main_v30) = val_main_v30 (F := F) x1)
    (h66 : W (Proc.devRef .tc main_v66) = val_main_v66 (F := F) x0 x1 x2 x3 x4 x5) :
    after (sE (F := F)) W (Proc.devRef .tc main_v83) = val_main_v83 (F := F) x0 x1 x2 x3 x4 x5 x6 x7 := by
  after_results_simp
  simp only [a6, a7, h3, h6, h30, h66]
  rfl

set_option maxRecDepth 8192 in
set_option maxHeartbeats 4000000 in
/-- Stretch F leaves the log-softmax in `main_v84`. -/
theorem sF_v84 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x40, .f32⟩ : BufTy).Contents (Elt F)) (x7 : (⟨S40, .f32⟩ : BufTy).Contents (Elt F))
    (h83 : W (Proc.devRef .tc main_v83) = val_main_v83 (F := F) x0 x1 x2 x3 x4 x5 x6 x7) :
    after (sF (F := F)) W (Proc.devRef .tc main_v84) = val_main_v84 (F := F) x0 x1 x2 x3 x4 x5 x6 x7 := by
  after_results_simp
  simp only [h83]
  rfl

/-! ## The whole list -/

/-- After the 123 operations every argument buffer holds what it held. -/
theorem after_ops_args (V : Valuation τ sig (Elt F)) : ArgsKept (after (ops (F := F)) V) V := by
  rw [ops_split, after_append, after_append, after_append, after_append, after_append]
  exact (sF_args _).trans ((sE_args _).trans ((sD_args _).trans ((sC_args _).trans ((sB_args _).trans (sA_args V)))))

/-- After the 123 operations the result buffer holds the last stage function of the arguments: the stretches chained, each
    fed what the ones before it leave. -/
theorem after_ops_v84 (V : Valuation τ sig (Elt F)) :
    after (ops (F := F)) V (Proc.devRef .tc main_v84)
      = val_main_v84 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split, after_append, after_append, after_append, after_append, after_append]
  -- after stretch A
  have k₁ : ArgsKept (after sA V) V := sA_args V
  have v3₁ := sA_v3 V
  have v6₁ := sA_v6 V
  have v15₁ := sA_v15 V
  -- after stretch B
  have k₂ : ArgsKept (after sB (after sA V)) V := (sB_args _).trans k₁
  have v3₂ := (sB_keeps (after sA V)).1.trans v3₁
  have v6₂ := (sB_keeps (after sA V)).2.trans v6₁
  have v30₂ := sB_v30 (after sA V) _ v3₁ v6₁ v15₁
  -- after stretch C
  have k₃ : ArgsKept (after sC (after sB (after sA V))) V := (sC_args _).trans k₂
  have v3₃ := (sC_keeps (after sB (after sA V))).1.trans v3₂
  have v6₃ := (sC_keeps (after sB (after sA V))).2.1.trans v6₂
  have v30₃ := (sC_keeps (after sB (after sA V))).2.2.trans v30₂
  have v48₃ := sC_v48 (after sB (after sA V)) _ _ _ _ k₂.a0 k₂.a2 k₂.a3 v3₂ v6₂ v30₂
  -- after stretch D
  have k₄ : ArgsKept (after sD (after sC (after sB (after sA V)))) V := (sD_args _).trans k₃
  have v3₄ := (sD_keeps (after sC (after sB (after sA V)))).1.trans v3₃
  have v6₄ := (sD_keeps (after sC (after sB (after sA V)))).2.1.trans v6₃
  have v30₄ := (sD_keeps (after sC (after sB (after sA V)))).2.2.trans v30₃
  have v66₄ := sD_v66 (after sC (after sB (after sA V))) _ _ _ _ _ _ k₃.a4 k₃.a5 v3₃ v6₃ v30₃ v48₃
  -- after stretches E and F
  have v83₅ := sE_v83 (after sD (after sC (after sB (after sA V)))) _ _ _ _ _ _ _ _ k₄.a6 k₄.a7 v3₄ v6₄ v30₄ v66₄
  exact sF_v84 (after sE (after sD (after sC (after sB (after sA V))))) _ _ _ _ _ _ _ _ v83₅

/-- On every device, for any float values, from any memory with zero counters: every weakly fair execution of @main
    terminates with the result buffer at the read module's last stage function of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84)
        = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      have k := after_ops_args (F := F) (launchContents m c)
      ⟨(h c main_v84).trans (after_ops_v84 (launchContents m c)),
        (h c main_arg0).trans k.a0, (h c main_arg1).trans k.a1, (h c main_arg2).trans k.a2, (h c main_arg3).trans k.a3, (h c main_arg4).trans k.a4, (h c main_arg5).trans k.a5, (h c main_arg6).trans k.a6, (h c main_arg7).trans k.a7⟩)
    (run_after m ρ)

end Cert.ReferenceIdeal.RefValue

end
-- ==== Proof.LibGatherRows.lean ====
/-
  A gather of whole rows, read at an index. For a table x : [N, D] and one row number per result row,
  idx : [R, 1], the gather with one offset axis (the result's axis 1), the table's axis 0 collapsed and named by
  the start index, and slices [1, D], produces the [R, D] array whose row t is the table's row idx[t, 0]: the
  start index is read as a signed integer and clamped into [0, N − 1], and the column is the result's own column.
  The same with one more batch axis: idx : [R, A, 1] and result [R, A, D], row (t, a) being the table's row
  idx[t, a, 0].
-/
import Idealize.ShloMosaic.Lib.ValueIdx

noncomputable section

namespace Idealize.ShloMosaic.ValueIdx

open Idealize.ShloMosaic

section Rows
variable {α : Type}

/-- The dimension numbers of a row gather: operand [N, D], start indices [R, 1], result [R, D]. -/
abbrev rowsDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices index [t, 0] of result index (t, j). -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The row gather at (t, j): the table at row idx[t, 0] (signed, clamped into [0, N − 1]) and column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N D R wf) x idx y
      = x (ix2 ⟨min (idx (rowsIdx y)).toInt.toNat (N - 1), by omega⟩ ⟨(y 1).val, idx2_lt1 y⟩) := by
  unfold Host.gather
  congr 1
  funext a
  refine Fin.ext ?_
  show (rowsDims N D R wf).start y idx a + (rowsDims N D R wf).batchCoord y a + (rowsDims N D R wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N D R wf).startIndexMap from List.mem_singleton.mpr rfl)]
    have hsi : (rowsDims N D R wf).siIdx y ⟨List.idxOf (⟨0, by decide⟩ : Fin 2) (rowsDims N D R wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  | ⟨1, _⟩ =>
    unfold GatherDims.start
    rw [dif_neg (show (⟨1, by decide⟩ : Fin 2) ∉ (rowsDims N D R wf).startIndexMap from
      fun h => absurd (congrArg Fin.val (List.mem_singleton.mp h)) Nat.one_ne_zero)]
    simp only [Nat.zero_add]
    rfl

end Rows

section Rows3
variable {α : Type}

/-- The dimension numbers of a row gather with two batch axes: operand [N, D], start indices [R, A, 1], result
    [R, A, D]. -/
abbrev rows3Dims (N D R A : Nat) (wf : GatherDims.WF ⟨2, ![N, D]⟩ ⟨3, ![R, A, 1]⟩ ⟨3, ![R, A, D]⟩ [2] [0] [] [0] [] 2 ![1, D]) :
    GatherDims ⟨2, ![N, D]⟩ ⟨3, ![R, A, 1]⟩ ⟨3, ![R, A, D]⟩ where
  offsetDims := [2]
  collapsedSliceDims := [0]
  operandBatchingDims := []
  startIndicesBatchingDims := []
  startIndexMap := [0]
  indexVectorDim := 2
  sliceSizes := ![1, D]
  wf := wf

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The start-indices index [t, a, 0] of result index (t, a, j). -/
abbrev rows3Idx {R A D : Nat} (y : (⟨3, ![R, A, D]⟩ : Shape).Idx) : (⟨3, ![R, A, 1]⟩ : Shape).Idx :=
  fun b => match b with | ⟨0, _⟩ => ⟨(y 0).val, idx3_lt0 y⟩ | ⟨1, _⟩ => ⟨(y 1).val, idx3_lt1 y⟩ | ⟨2, _⟩ => ⟨0, Nat.one_pos⟩

/-- The row gather at (t, a, j): the table at row idx[t, a, 0] (signed, clamped into [0, N − 1]) and column j. -/
theorem gather_rows3_apply {N D R A w : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ w) (y : (⟨3, ![R, A, D]⟩ : Shape).Idx) :
    Host.gather (rows3Dims N D R A wf) x idx y
      = x (ix2 ⟨min (idx (rows3Idx y)).toInt.toNat (N - 1), by omega⟩ ⟨(y 2).val, idx3_lt2 y⟩) := by
  unfold Host.gather
  congr 1
  funext a
  refine Fin.ext ?_
  show (rows3Dims N D R A wf).start y idx a + (rows3Dims N D R A wf).batchCoord y a + (rows3Dims N D R A wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rows3Dims N D R A wf).startIndexMap from List.mem_singleton.mpr rfl)]
    have hsi : (rows3Dims N D R A wf).siIdx y ⟨List.idxOf (⟨0, by decide⟩ : Fin 2) (rows3Dims N D R A wf).startIndexMap,
        List.idxOf_lt_length_iff.2 (List.mem_singleton.mpr rfl)⟩ = rows3Idx y := by
      funext b; refine Fin.ext ?_
      match b with
      | ⟨0, _⟩ => rfl
      | ⟨1, _⟩ => rfl
      | ⟨2, _⟩ => rfl
    rw [hsi]
    rfl
  | ⟨1, _⟩ =>
    unfold GatherDims.start
    rw [dif_neg (show (⟨1, by decide⟩ : Fin 2) ∉ (rows3Dims N D R A wf).startIndexMap from
      fun h => absurd (congrArg Fin.val (List.mem_singleton.mp h)) Nat.one_ne_zero)]
    simp only [Nat.zero_add]
    rfl

end Rows3

/-! ## Looking a row up by a signed word in range

jnp's indexing first wraps a negative index by the table's height, select (i < 0) (i + n) i: for an index that is
not negative this is the index itself. The gather then clamps the start index, read as a signed integer, into
[0, N − 1]: for a word w with 0 ≤ w (signed) and w < N the clamped start is w itself. -/

/-- A signed word that is not negative is not below zero in the signed order. -/
theorem cmpi_slt_zero_of_nonneg (w : BitVec 32) (h : 0 ≤ w.toInt) : IntOp.cmpi .slt w (0#32) = 0#1 := by
  unfold IntOp.cmpi
  have : w.slt (0#32) = false := by
    simp only [BitVec.slt, BitVec.toInt_zero, decide_eq_false_iff_not, not_lt]
    exact h
  simp [this]

/-- The negative-index wrap leaves a non-negative index alone. -/
theorem wrap_of_nonneg {α : Type} (w : BitVec 32) (h : 0 ≤ w.toInt) (a b : α) :
    Scalar.select (IntOp.cmpi .slt w (0#32)) a b = b := by
  rw [cmpi_slt_zero_of_nonneg w h]; exact select_zero a b

/-- For a signed word in [0, N) the clamp of a gather's start index is the word's own value. -/
theorem clamp_of_range (w : BitVec 32) (N : Nat) (h0 : 0 ≤ w.toInt) (hlt : w.toNat < N) :
    min w.toInt.toNat (N - 1) = w.toNat := by
  have e : w.toInt.toNat = w.toNat := by
    have := BitVec.toInt_eq_toNat_cond w
    split at this <;> omega
  rw [e]; omega

section
variable {α : Type}

/-- A row gather whose start index at row t is a signed word in [0, N) reads that row of the table. -/
theorem gather_rows_of_word {N D R : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ 32) (y : (⟨2, ![R, D]⟩ : Shape).Idx)
    (w : BitVec 32) (hw : idx (rowsIdx y) = w) (h0 : 0 ≤ w.toInt) (hlt : w.toNat < N) :
    Host.gather (rowsDims N D R wf) x idx y = x (ix2 ⟨w.toNat, hlt⟩ ⟨(y 1).val, idx2_lt1 y⟩) := by
  rw [gather_rows_apply hN wf x idx y]
  refine congrArg x ?_
  refine congrArg (fun r => ix2 r (⟨(y 1).val, idx2_lt1 y⟩ : Fin D)) (Fin.ext ?_)
  show min (idx (rowsIdx y)).toInt.toNat (N - 1) = w.toNat
  rw [hw]; exact clamp_of_range w N h0 hlt

/-- The same with two batch axes. -/
theorem gather_rows3_of_word {N D R A : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ 32) (y : (⟨3, ![R, A, D]⟩ : Shape).Idx)
    (w : BitVec 32) (hw : idx (rows3Idx y) = w) (h0 : 0 ≤ w.toInt) (hlt : w.toNat < N) :
    Host.gather (rows3Dims N D R A wf) x idx y = x (ix2 ⟨w.toNat, hlt⟩ ⟨(y 2).val, idx3_lt2 y⟩) := by
  rw [gather_rows3_apply hN wf x idx y]
  refine congrArg x ?_
  refine congrArg (fun r => ix2 r (⟨(y 2).val, idx3_lt2 y⟩ : Fin D)) (Fin.ext ?_)
  show min (idx (rows3Idx y)).toInt.toNat (N - 1) = w.toNat
  rw [hw]; exact clamp_of_range w N h0 hlt

end

end Idealize.ShloMosaic.ValueIdx

end
-- ==== Proof.LibScatterAddRows.lean ====
/-
  An accumulating scatter of whole rows, read at an index, at the exact (extended-real) instance. For an operand
  x : [N, D], one row number per update row, idx : [R, 1], and updates upd : [R, D], the scatter with an add body,
  one update window axis (the updates' axis 1), the operand's axis 0 inserted and named by the scatter index, adds
  update row e into operand row idx[e, 0]. The row number is read as a signed integer and is NOT clamped: an update
  row whose number is outside [0, N) is dropped. So the result at (i, k) is x[i, k] plus the sum of upd[e, k] over
  the update rows e that land on row i. The same for a vector operand x : [N] with updates upd : [R]: the result
  at i is x[i] plus the sum of upd[e] over the e that land on i.
-/
import Idealize.ShloMosaic.Lib.ValueIdx

noncomputable section

open scoped BigOperators

namespace Idealize.ShloMosaic.ValueIdx

open Idealize.ShloMosaic

/-- operand [N, D], scatter indices [R, 1], updates [R, D]: update row e is added into operand row idx[e,0] -/
abbrev rowsScatterDims (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- operand [N], scatter indices [R, 1], updates [R] -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- the operand row update row e lands on: idx[e,0] read signed, when it is in [0, N); none otherwise -/
def landRow (N : Nat) {R w : Nat} (idx : IVec ⟨2, ![R, 1]⟩ w) (e : Fin R) : Option (Fin N) :=
  if h : 0 ≤ (idx (ix2 e ⟨0, Nat.one_pos⟩)).toInt ∧ (idx (ix2 e ⟨0, Nat.one_pos⟩)).toInt < N then
    some ⟨(idx (ix2 e ⟨0, Nat.one_pos⟩)).toInt.toNat, by omega⟩
  else none

/-- Two rank-2 indices given by coordinates are equal only when the coordinates are. -/
theorem ix2_inj {n0 n1 : Nat} {a a' : Fin n0} {b b' : Fin n1} (h : ix2 a b = ix2 a' b') : a = a' ∧ b = b' := by
  have h0 := congrFun h (⟨0, by decide⟩ : Fin 2)
  have h1 := congrFun h (⟨1, by decide⟩ : Fin 2)
  exact ⟨h0, h1⟩

section Rows
variable {N D R w : Nat} (wf : ScatterDims.WF ⟨2, ![N, D]⟩ ⟨2, ![R, 1]⟩ ⟨2, ![R, D]⟩ [1] [0] [0] 1)

/-- On the operand's row axis the window starts at the row number idx[e, 0], read signed. -/
theorem rows_start0 (idx : IVec ⟨2, ![R, 1]⟩ w) (e : Fin R) (k' : Fin D) :
    (rowsScatterDims N D R wf).start (ix2 e k') idx (⟨0, by decide⟩ : Fin 2) = (idx (ix2 e ⟨0, Nat.one_pos⟩)).toInt := by
  unfold ScatterDims.start
  rw [dif_pos (show (⟨0, by decide⟩ : Fin 2) ∈ (rowsScatterDims N D R wf).scatterDimsToOperandDims from
    List.mem_singleton.mpr rfl)]
  have hsi : (rowsScatterDims N D R wf).siIdx (ix2 e k')
      ⟨List.idxOf (⟨0, by decide⟩ : Fin 2) (rowsScatterDims N D R wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the operand's column axis the window starts at 0: the scatter index names no column. -/
theorem rows_start1 (idx : IVec ⟨2, ![R, 1]⟩ w) (e : Fin R) (k' : Fin D) :
    (rowsScatterDims N D R wf).start (ix2 e k') idx (⟨1, by decide⟩ : Fin 2) = 0 := by
  unfold ScatterDims.start
  rw [dif_neg (show (⟨1, by decide⟩ : Fin 2) ∉ (rowsScatterDims N D R wf).scatterDimsToOperandDims from
    fun h => absurd (congrArg Fin.val (List.mem_singleton.mp h)) Nat.one_ne_zero)]

/-- The row axis is inserted: its window coordinate is 0. -/
theorem rows_window0 (e : Fin R) (k' : Fin D) :
    (rowsScatterDims N D R wf).window (ix2 e k') (⟨0, by decide⟩ : Fin 2) = 0 := rfl

/-- The column axis carries the update's column. -/
theorem rows_window1 (e : Fin R) (k' : Fin D) :
    (rowsScatterDims N D R wf).window (ix2 e k') (⟨1, by decide⟩ : Fin 2) = k'.val := rfl

/-- Update element (e, k') lands on operand element (row e lands on, k'), when row e lands at all. -/
theorem resultIdx?_rows (idx : IVec ⟨2, ![R, 1]⟩ w) (e : Fin R) (k' : Fin D) :
    (rowsScatterDims N D R wf).resultIdx? (ix2 e k') idx = (landRow N idx e).map (fun i => ix2 i k') := by
  have hs0 := rows_start0 wf idx e k'
  have hs1 := rows_start1 wf idx e k'
  have hw0 := rows_window0 wf e k'
  have hw1 := rows_window1 wf e k'
  unfold ScatterDims.resultIdx? landRow
  by_cases h : 0 ≤ (idx (ix2 e ⟨0, Nat.one_pos⟩)).toInt ∧ (idx (ix2 e ⟨0, Nat.one_pos⟩)).toInt < N
  · have hall : ∀ a : Fin 2, 0 ≤ (rowsScatterDims N D R wf).start (ix2 e k') idx a + (rowsScatterDims N D R wf).window (ix2 e k') a ∧
        (rowsScatterDims N D R wf).start (ix2 e k') idx a + (rowsScatterDims N D R wf).window (ix2 e k') a
          < (⟨2, ![N, D]⟩ : Shape).size a := by
      intro a
      match a with
      | ⟨0, _⟩ =>
        rw [hs0, hw0]
        show _ ∧ _ < ((N : Nat) : Int)
        omega
      | ⟨1, _⟩ =>
        rw [hs1, hw1]
        show _ ∧ _ < ((D : Nat) : Int)
        have := k'.isLt
        omega
    rw [dif_pos hall, dif_pos h]
    show _ = some _
    congr 1
    funext a
    refine Fin.ext ?_
    match a with
    | ⟨0, _⟩ =>
      show ((rowsScatterDims N D R wf).start (ix2 e k') idx (⟨0, by decide⟩ : Fin 2) + (rowsScatterDims N D R wf).window (ix2 e k') (⟨0, by decide⟩ : Fin 2)).toNat = _
      rw [hs0, hw0]
      simp
    | ⟨1, _⟩ =>
      show ((rowsScatterDims N D R wf).start (ix2 e k') idx (⟨1, by decide⟩ : Fin 2) + (rowsScatterDims N D R wf).window (ix2 e k') (⟨1, by decide⟩ : Fin 2)).toNat = _
      rw [hs1, hw1]
      simp
  · rw [dif_neg h, dif_neg]
    · rfl
    · intro hall
      have h0 := hall (⟨0, by decide⟩ : Fin 2)
      rw [hs0, hw0] at h0
      apply h
      have h0' : 0 ≤ (idx (ix2 e ⟨0, Nat.one_pos⟩)).toInt + ((0 : Nat) : Int) ∧
          (idx (ix2 e ⟨0, Nat.one_pos⟩)).toInt + ((0 : Nat) : Int) < ((N : Nat) : Int) := h0
      omega

/-- The accumulating row scatter at (i, k): the operand there plus the updates' column k over the update rows
    that land on row i. -/
theorem scatterAdd_rows_apply (x : (⟨2, ![N, D]⟩ : Shape).Idx → EReal) (idx : IVec ⟨2, ![R, 1]⟩ w)
    (upd : (⟨2, ![R, D]⟩ : Shape).Idx → EReal) (i : Fin N) (k : Fin D) :
    Host.scatterAdd (F := Ideal) (φ := .f32) (rowsScatterDims N D R wf) x idx upd (ix2 i k)
      = x (ix2 i k) + ∑ e ∈ Finset.univ.filter (fun e : Fin R => landRow N idx e = some i), upd (ix2 e k) := by
  show x (ix2 i k) + ∑ j ∈ Finset.univ.filter
      (fun j => (rowsScatterDims N D R wf).resultIdx? j idx = some (ix2 i k)), upd j = _
  congr 1
  rw [Finset.sum_filter, Finset.sum_filter, sum_idx2]
  refine Finset.sum_congr rfl (fun e _ => ?_)
  by_cases hl : landRow N idx e = some i
  · rw [if_pos hl, Finset.sum_eq_single k]
    · rw [if_pos]
      rw [resultIdx?_rows, hl]; rfl
    · intro k' _ hk'
      rw [if_neg]
      rw [resultIdx?_rows, hl]
      intro h
      exact hk' (ix2_inj (Option.some.inj h)).2
    · intro h; exact absurd (Finset.mem_univ k) h
  · rw [if_neg hl]
    refine Finset.sum_eq_zero (fun k' _ => ?_)
    rw [if_neg]
    rw [resultIdx?_rows]
    intro h
    apply hl
    cases hr : landRow N idx e with
    | none => rw [hr] at h; exact absurd h (by simp)
    | some i' =>
      rw [hr] at h
      exact congrArg some (ix2_inj (Option.some.inj h)).1

end Rows

/-! ## A vector operand -/

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices given by their coordinate are equal only when the coordinates are. -/
theorem ix1_inj {n : Nat} {a a' : Fin n} (h : ix1 a = ix1 a') : a = a' := by
  have h0 := congrFun h (⟨0, by decide⟩ : Fin 1)
  exact h0

section Vec
variable {N R w : Nat} (wf : ScatterDims.WF ⟨1, ![N]⟩ ⟨2, ![R, 1]⟩ ⟨1, ![R]⟩ [] [0] [0] 1)

/-- On the operand's one axis the window starts at the row number idx[e, 0], read signed. -/
theorem vec_start0 (idx : IVec ⟨2, ![R, 1]⟩ w) (e : Fin R) :
    (vecScatterDims N R wf).start (ix1 e) idx (⟨0, by decide⟩ : Fin 1) = (idx (ix2 e ⟨0, Nat.one_pos⟩)).toInt := by
  unfold ScatterDims.start
  rw [dif_pos (show (⟨0, by decide⟩ : Fin 1) ∈ (vecScatterDims N R wf).scatterDimsToOperandDims from
    List.mem_singleton.mpr rfl)]
  have hsi : (vecScatterDims N R wf).siIdx (ix1 e)
      ⟨List.idxOf (⟨0, by decide⟩ : Fin 1) (vecScatterDims N R wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's one axis is inserted: its window coordinate is 0. -/
theorem vec_window0 (e : Fin R) :
    (vecScatterDims N R wf).window (ix1 e) (⟨0, by decide⟩ : Fin 1) = 0 := rfl

/-- Update element e lands on the operand element row e lands on, when it lands at all. -/
theorem resultIdx?_vec (idx : IVec ⟨2, ![R, 1]⟩ w) (e : Fin R) :
    (vecScatterDims N R wf).resultIdx? (ix1 e) idx = (landRow N idx e).map (fun i => ix1 i) := by
  have hs0 := vec_start0 wf idx e
  have hw0 := vec_window0 wf e
  unfold ScatterDims.resultIdx? landRow
  by_cases h : 0 ≤ (idx (ix2 e ⟨0, Nat.one_pos⟩)).toInt ∧ (idx (ix2 e ⟨0, Nat.one_pos⟩)).toInt < N
  · have hall : ∀ a : Fin 1, 0 ≤ (vecScatterDims N R wf).start (ix1 e) idx a + (vecScatterDims N R wf).window (ix1 e) a ∧
        (vecScatterDims N R wf).start (ix1 e) idx a + (vecScatterDims N R wf).window (ix1 e) a
          < (⟨1, ![N]⟩ : Shape).size a := by
      intro a
      match a with
      | ⟨0, _⟩ =>
        rw [hs0, hw0]
        show _ ∧ _ < ((N : Nat) : Int)
        omega
    rw [dif_pos hall, dif_pos h]
    show _ = some _
    congr 1
    funext a
    refine Fin.ext ?_
    match a with
    | ⟨0, _⟩ =>
      show ((vecScatterDims N R wf).start (ix1 e) idx (⟨0, by decide⟩ : Fin 1) + (vecScatterDims N R wf).window (ix1 e) (⟨0, by decide⟩ : Fin 1)).toNat = _
      rw [hs0, hw0]
      simp
  · rw [dif_neg h, dif_neg]
    · rfl
    · intro hall
      have h0 := hall (⟨0, by decide⟩ : Fin 1)
      rw [hs0, hw0] at h0
      apply h
      have h0' : 0 ≤ (idx (ix2 e ⟨0, Nat.one_pos⟩)).toInt + ((0 : Nat) : Int) ∧
          (idx (ix2 e ⟨0, Nat.one_pos⟩)).toInt + ((0 : Nat) : Int) < ((N : Nat) : Int) := h0
      omega

/-- The accumulating vector scatter at i: the operand there plus the updates that land on i. -/
theorem scatterAdd_vec_apply (x : (⟨1, ![N]⟩ : Shape).Idx → EReal) (idx : IVec ⟨2, ![R, 1]⟩ w)
    (upd : (⟨1, ![R]⟩ : Shape).Idx → EReal) (i : Fin N) :
    Host.scatterAdd (F := Ideal) (φ := .f32) (vecScatterDims N R wf) x idx upd (ix1 i)
      = x (ix1 i) + ∑ e ∈ Finset.univ.filter (fun e : Fin R => landRow N idx e = some i), upd (ix1 e) := by
  show x (ix1 i) + ∑ j ∈ Finset.univ.filter
      (fun j => (vecScatterDims N R wf).resultIdx? j idx = some (ix1 i)), upd j = _
  congr 1
  rw [Finset.sum_filter, Finset.sum_filter, sum_idx1]
  refine Finset.sum_congr rfl (fun e _ => ?_)
  by_cases hl : landRow N idx e = some i
  · rw [if_pos hl, if_pos]
    rw [resultIdx?_vec, hl]; rfl
  · rw [if_neg hl, if_neg]
    rw [resultIdx?_vec]
    intro h
    apply hl
    cases hr : landRow N idx e with
    | none => rw [hr] at h; exact absurd h (by simp)
    | some i' =>
      rw [hr] at h
      exact congrArg some (ix1_inj (Option.some.inj h))

end Vec

end Idealize.ShloMosaic.ValueIdx

end
-- ==== Proof.LibGraphConv.lean ====
/-
  General lemmas for graph aggregation on the extended reals, importing no program.
  A graph convolution aggregates, into node n, the messages of the edges e whose destination is n. One way scales each
  message by both end points' normalisation entries, d(src e) · d(dst e), before adding; another scales the message by
  d(src e) only, adds, and multiplies the sum by d(n) afterwards. Since d(dst e) = d(n) for every edge that lands on n,
  and d(n) is a non-negative finite number, multiplying by it distributes over the sum, on the extended reals as on the
  reals (sum_mul_of_nonneg, agg_law), and the two host programs — row gather, scale, accumulating row scatter — agree
  entry by entry for any extents (conv_generic). A degree that is a count of ones is a real (count_real), and its
  guarded power is a non-negative finite number (select_pow_fin); minus one half as a float pattern
  (ofBits_neg_half_f32). Also: arrays read at an index through broadcast_in_dim of a vector to a column or a row, of a
  column over columns, of a row over rows, of a scalar over anything (bid_col, bid_cols, bid_row, bid_rows,
  bid_scalar); a vector gathered by one-column row numbers (vecGatherDims, gather_vec_apply); a row gather read at
  (e, j) with the clamped row named (clampRow, gather_rows_at); the index word of an update row that lands
  (landRow_word).
-/
import proofs.«120668_j1683627180254_2_alg».proof.Proof.LibGatherRows
import proofs.«120668_j1683627180254_2_alg».proof.Proof.LibScatterAddRows
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.GcnLaw

open Idealize.ShloMosaic Idealize.ShloMosaic.ValueIdx

/-! ## Scaling a sum by a non-negative finite factor -/

/-- Multiplying each term by a non-negative finite extended real multiplies the sum. -/
theorem sum_mul_of_nonneg {ι : Type} (S : Finset ι) (f : ι → EReal) (D : EReal) (h0 : 0 ≤ D) (ht : D ≠ ⊤) :
    ∑ e ∈ S, f e * D = (∑ e ∈ S, f e) * D := by
  classical
  induction S using Finset.induction_on with
  | empty => simp
  | insert a s ha ih =>
    rw [Finset.sum_insert ha, Finset.sum_insert ha, ih, EReal.right_distrib_of_nonneg_of_ne_top h0 ht]

/-- The aggregation law at one entry: messages h(e) scaled by a(e) · b(e), where b(e) is the same non-negative finite
    D on every edge of the sum, add up to D times the sum of the messages scaled by a(e) alone. -/
theorem agg_law {ι : Type} (S : Finset ι) (h a b : ι → EReal) (D : EReal) (h0 : 0 ≤ D) (ht : D ≠ ⊤)
    (hb : ∀ e ∈ S, b e = D) :
    (0 : EReal) + ∑ e ∈ S, h e * (a e * b e) = ((0 : EReal) + ∑ e ∈ S, h e * a e) * D := by
  rw [zero_add, zero_add, ← sum_mul_of_nonneg S _ D h0 ht]
  exact Finset.sum_congr rfl fun e he => by rw [hb e he, mul_assoc]

/-! ## The normalisation entry is a non-negative real -/

/-- The float pattern of minus one half. -/
theorem ofBits_neg_half_f32 : Ideal.ofBits .f32 0xBF000000#32 = (((-(1 / 2) : ℝ)) : EReal) := by
  simp [Ideal.ofBits, Ideal.ieee, -EReal.coe_mul, -EReal.coe_neg]; norm_num

/-- A count of ones, started from zero, is a non-negative real. -/
theorem count_real {ι : Type} (S : Finset ι) :
    Ideal.ofBits .f32 0x00000000#32 + ∑ _e ∈ S, Ideal.ofBits .f32 0x3F800000#32 = ((S.card : ℝ) : EReal) := by
  rw [Ideal.ofBits_zero_f32, Ideal.ofBits_one_f32, zero_add, Finset.sum_const, ← EReal.coe_one, ← EReal.coe_nsmul]
  congr 1
  simp

/-- A power of a non-negative real, or zero, whichever a one-bit mask selects, is non-negative and finite. -/
theorem select_pow_fin (c : BitVec 1) (r y : ℝ) (hr : 0 ≤ r) :
    0 ≤ Scalar.select c (Ideal.pow (r : EReal) (y : EReal)) (Ideal.ofBits .f32 0x00000000#32)
      ∧ Scalar.select c (Ideal.pow (r : EReal) (y : EReal)) (Ideal.ofBits .f32 0x00000000#32) ≠ ⊤ := by
  by_cases hc : c = 1#1
  · rw [hc, select_one]
    show 0 ≤ ((Real.rpow r y : ℝ) : EReal) ∧ ((Real.rpow r y : ℝ) : EReal) ≠ ⊤
    exact ⟨EReal.coe_nonneg.mpr (Real.rpow_nonneg hr y), EReal.coe_ne_top _⟩
  · rw [eq_zero_of_ne_one hc, select_zero, Ideal.ofBits_zero_f32]
    exact ⟨le_refl 0, EReal.zero_ne_top⟩

/-! ## Broadcasts read at an index -/

section Layout
variable {α : Type}

/-- A vector [R] set as a column [R, 1]. -/
theorem bid_col {R : Nat} (hR : R ≠ 1) (x : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h x (ix2 e u) = x (ix1 e) :=
  broadcastInDim_apply ![0] h x (ix2 e u) (ix1 e) (fun a => match a with
    | ⟨0, _⟩ => by show e.val = if R = 1 then 0 else e.val; rw [if_neg hR])

/-- A column [R, 1] repeated over D columns. -/
theorem bid_cols {R D : Nat} (hR : R ≠ 1) (x : (⟨2, ![R, 1]⟩ : Shape).Idx → α)
    (h : (⟨2, ![R, 1]⟩ : Shape).BroadcastsInDim ⟨2, ![R, D]⟩ ![0, 1]) (e : Fin R) (j : Fin D) :
    broadcastInDim ⟨2, ![R, D]⟩ ![0, 1] h x (ix2 e j) = x (ix2 e (0 : Fin 1)) :=
  broadcastInDim_apply ![0, 1] h x (ix2 e j) (ix2 e (0 : Fin 1)) (fun a => match a with
    | ⟨0, _⟩ => by show e.val = if R = 1 then 0 else e.val; rw [if_neg hR]
    | ⟨1, _⟩ => by show 0 = if (1 : Nat) = 1 then 0 else j.val; rw [if_pos rfl])

/-- A vector [D] set as a row [1, D]. -/
theorem bid_row {D : Nat} (hD : D ≠ 1) (x : (⟨1, ![D]⟩ : Shape).Idx → α)
    (h : (⟨1, ![D]⟩ : Shape).BroadcastsInDim ⟨2, ![1, D]⟩ ![1]) (u : Fin 1) (j : Fin D) :
    broadcastInDim ⟨2, ![1, D]⟩ ![1] h x (ix2 u j) = x (ix1 j) :=
  broadcastInDim_apply ![1] h x (ix2 u j) (ix1 j) (fun a => match a with
    | ⟨0, _⟩ => by show j.val = if D = 1 then 0 else j.val; rw [if_neg hD])

/-- A row [1, D] repeated down N rows. -/
theorem bid_rows {N D : Nat} (hD : D ≠ 1) (x : (⟨2, ![1, D]⟩ : Shape).Idx → α)
    (h : (⟨2, ![1, D]⟩ : Shape).BroadcastsInDim ⟨2, ![N, D]⟩ ![0, 1]) (n : Fin N) (j : Fin D) :
    broadcastInDim ⟨2, ![N, D]⟩ ![0, 1] h x (ix2 n j) = x (ix2 (0 : Fin 1) j) :=
  broadcastInDim_apply ![0, 1] h x (ix2 n j) (ix2 (0 : Fin 1) j) (fun a => match a with
    | ⟨0, _⟩ => by show 0 = if (1 : Nat) = 1 then 0 else n.val; rw [if_pos rfl]
    | ⟨1, _⟩ => by show j.val = if D = 1 then 0 else j.val; rw [if_neg hD])

/-- A scalar spread over any shape. -/
theorem bid_scalar {T : Shape} (h : (⟨0, ![]⟩ : Shape).BroadcastsInDim T ![]) (x : (⟨0, ![]⟩ : Shape).Idx → α) (j : T.Idx) :
    broadcastInDim T ![] h x j = x ix0 :=
  broadcastInDim_apply ![] h x j ix0 (fun a => a.elim0)

end Layout

/-! ## A vector gathered by row numbers -/

section VecGather
variable {α : Type}

/-- The dimension numbers of a gather of single entries: operand [N], start indices [R, 1], result [R]. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry e of the gathered vector is the operand's entry idx[e, 0], read signed and clamped into [0, N − 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e (0 : Fin 1))).toInt.toNat (N - 1), by omega⟩) := by
  unfold Host.gather
  congr 1
  funext a
  refine Fin.ext ?_
  show (vecGatherDims N R wf).start (ix1 e) idx a + (vecGatherDims N R wf).batchCoord (ix1 e) a
    + (vecGatherDims N R wf).offCoord (ix1 e) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 1) ∈ (vecGatherDims N R wf).startIndexMap from List.mem_singleton.mpr rfl)]
    have hsi : (vecGatherDims N R wf).siIdx (ix1 e) ⟨List.idxOf (⟨0, by decide⟩ : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end VecGather

/-! ## An edge that lands on a node names that node -/

/-- When update row e lands on row n, its index word is non-negative and is n. -/
theorem landRow_word {N R : Nat} (idx : IVec ⟨2, ![R, 1]⟩ 32) (e : Fin R) (n : Fin N)
    (h : landRow N idx e = some n) :
    0 ≤ (idx (ix2 e (0 : Fin 1))).toInt ∧ (idx (ix2 e (0 : Fin 1))).toInt.toNat = n.val := by
  unfold landRow at h
  split at h
  · rename_i hc
    refine ⟨hc.1, ?_⟩
    have := congrArg Fin.val (Option.some.inj h)
    exact this
  · exact absurd h (by simp)

/-! ## One graph convolution, two ways -/

section Conv
variable {N R D : Nat}

/-- The row a gather reads for edge e: the index word read signed and clamped into [0, N − 1]. -/
def clampRow (hN : 0 < N) (idx : IVec ⟨2, ![R, 1]⟩ 32) (e : Fin R) : Fin N :=
  ⟨min (idx (ix2 e (0 : Fin 1))).toInt.toNat (N - 1), by omega⟩

/-- The row gather at (e, j) reads column j of the clamped row of edge e. -/
theorem gather_rows_at {α : Type} (hN : 0 < N)
    (wfG : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ 32) (e : Fin R) (j : Fin D) :
    Host.gather (rowsDims N D R wfG) x idx (ix2 e j) = x (ix2 (clampRow hN idx e) j) := by
  rw [gather_rows_apply hN wfG]
  have h : rowsIdx (ix2 e j) = ix2 e (0 : Fin 1) := by
    funext a; apply Fin.ext
    match a with
    | ⟨0, _⟩ => rfl
    | ⟨1, _⟩ => rfl
  refine congrArg x ?_
  funext a; apply Fin.ext
  match a with
  | ⟨0, _⟩ =>
    show min (idx (rowsIdx (ix2 e j))).toInt.toNat (N - 1) = min (idx (ix2 e (0 : Fin 1))).toInt.toNat (N - 1)
    rw [h]
  | ⟨1, _⟩ => rfl

/-- Aggregating the rows H(src e) scaled by nb(e) = d(src e) · d(dst e) into their destination rows is aggregating the
    rows H'(src e) = H(src e) · d(src e) and scaling row n of the result by d(n): every edge that lands on n has
    d(dst e) = d(n), and d(n) is non-negative and finite. -/
theorem conv_generic (hN : 0 < N)
    (wfS : ScatterDims.WF ⟨2, ![N, D]⟩ ⟨2, ![R, 1]⟩ ⟨2, ![R, D]⟩ [1] [0] [0] 1)
    (wfG : GatherDims.WF ⟨2, ![N, D]⟩ ⟨2, ![R, 1]⟩ ⟨2, ![R, D]⟩ [1] [0] [] [0] [] 1 ![1, D])
    (H H' : (⟨2, ![N, D]⟩ : Shape).Idx → EReal) (d : (⟨1, ![N]⟩ : Shape).Idx → EReal)
    (idxS idxD idxW : IVec ⟨2, ![R, 1]⟩ 32) (Z : (⟨2, ![N, D]⟩ : Shape).Idx → EReal) (nb : (⟨2, ![R, D]⟩ : Shape).Idx → EReal)
    (hZ : ∀ i, Z i = 0)
    (hnb : ∀ (e : Fin R) (j : Fin D), nb (ix2 e j) = d (ix1 (clampRow hN idxS e)) * d (ix1 (clampRow hN idxW e)))
    (hH' : ∀ (r : Fin N) (j : Fin D), H' (ix2 r j) = H (ix2 r j) * d (ix1 r))
    (hd : ∀ n : Fin N, 0 ≤ d (ix1 n) ∧ d (ix1 n) ≠ ⊤)
    (hW : ∀ (e : Fin R) (n : Fin N), landRow N idxD e = some n → clampRow hN idxW e = n)
    (n : Fin N) (j : Fin D) :
    Host.scatterAdd (F := Ideal) (φ := .f32) (rowsScatterDims N D R wfS) Z idxD
        (mulf (F := Ideal) (φ := .f32) (Host.gather (rowsDims N D R wfG) H idxS) nb) (ix2 n j)
      = Host.scatterAdd (F := Ideal) (φ := .f32) (rowsScatterDims N D R wfS) Z idxD (Host.gather (rowsDims N D R wfG) H' idxS) (ix2 n j)
        * d (ix1 n) := by
  rw [scatterAdd_rows_apply, scatterAdd_rows_apply, hZ]
  have hl : ∀ e : Fin R, (mulf (F := Ideal) (φ := .f32) (Host.gather (rowsDims N D R wfG) H idxS) nb) (ix2 e j)
      = H (ix2 (clampRow hN idxS e) j) * (d (ix1 (clampRow hN idxS e)) * d (ix1 (clampRow hN idxW e))) := by
    intro e
    rw [mulf_apply, gather_rows_at hN wfG, hnb]
  have hr : ∀ e : Fin R, (Host.gather (rowsDims N D R wfG) H' idxS) (ix2 e j)
      = H (ix2 (clampRow hN idxS e) j) * d (ix1 (clampRow hN idxS e)) := by
    intro e
    rw [gather_rows_at hN wfG]
    exact hH' (clampRow hN idxS e) j
  rw [Finset.sum_congr rfl (fun e _ => hl e), Finset.sum_congr rfl (fun e _ => hr e)]
  refine agg_law _ _ _ _ _ (hd n).1 (hd n).2 (fun e he => ?_)
  rw [hW e n (Finset.mem_filter.mp he).2]

end Conv

end Cert.GcnLaw

end
-- ==== Proof.Bridge1.lean ====
/-
  The kernel's layers against the reference's, layer by layer. Write d for the normalisation vector. The reference's
  convolution of an array H is: gather H's rows by source, scale row e by d(src e) · d(dst e), add into destination rows.
  The kernel keeps, after each region, the array H' with H'(r, ·) = H(r, ·) · d(r); it gathers and adds H' unscaled, and
  the next region multiplies row n of the sum by d(n). By the aggregation law the two convolutions agree, so the
  clipped, biased rows that feed the next product agree, and the next region's array is again the reference's product
  scaled row by row.
-/
import proofs.«120668_j1683627180254_2_alg».proof.Proof.KSpec
import proofs.«120668_j1683627180254_2_alg».proof.Proof.LibGraphConv
import proofs.«120668_j1683627180254_2_alg».proof.Proof.RefRead

set_option maxRecDepth 16384
set_option maxHeartbeats 4000000

noncomputable section

open scoped BigOperators

namespace Cert.Bridge

open Cert.KernelIdeal Cert.KernelIdeal.Gen Idealize.ShloMosaic Idealize.ShloMosaic.ValueIdx Cert.GcnLaw

variable (x0 : FVec Ideal S50000x128 .f32) (x1 : IVec S2x800000 32) (x2 : FVec Ideal S128x128 .f32) (x3 : FVec Ideal S128 .f32)
  (x4 : FVec Ideal S128x128 .f32) (x5 : FVec Ideal S128 .f32) (x6 : FVec Ideal S128x40 .f32) (x7 : FVec Ideal S40 .f32)

/-! ## Constants and the normalisation vector -/

/-- A float constant spread over any shape reads as the constant everywhere. -/
theorem bcast_const {T : Shape} (h : S_.BroadcastsInDim T ![]) (w : BitVec 32) (j : T.Idx) :
    broadcastInDim T ![] h (constant (F := Ideal) S_ .f32 w) j = Ideal.ofBits .f32 w :=
  bid_scalar h _ j

/-- The normalisation column at (r, 0) is the normalisation vector at r. -/
theorem dcol_at (r : Fin 50000) (u : Fin 1) : KSpec.dcol x1 (ix2 r u) = KSpec.dinv x1 (ix1 r) :=
  Body.castCol_apply _ _ r u

/-- The degree of a node is the number of edges that land on it. -/
theorem deg_at (n : Fin 50000) : KSpec.deg x1 (ix1 n)
    = (((Finset.univ.filter fun e : Fin 850000 => landRow 50000 (KSpec.dstI x1) e = some n).card : ℝ) : EReal) := by
  unfold KSpec.deg
  refine (scatterAdd_vec_apply scatter_S50000_S850000x1_S850000_n_0_0_1.wf _ _ _ n).trans ?_
  rw [bcast_const, Finset.sum_congr rfl (fun e _ => bcast_const bcast_S_S850000 0x3F800000#32 (ix1 e))]
  exact count_real _

/-- A host power at an entry. -/
theorem hostPowf_apply {s : Shape} (a b : FVec Ideal s .f32) (i : s.Idx) : Host.powf a b i = Ideal.pow (a i) (b i) := rfl

/-- The guarded inverse square root of a non-negative real degree is non-negative and finite. -/
theorem guard_fin (c : BitVec 1) (deg y z : EReal) (r : ℝ) (hr : 0 ≤ r) (hdeg : deg = (r : EReal))
    (hy : y = Ideal.ofBits .f32 0xBF000000#32) (hz : z = Ideal.ofBits .f32 0x00000000#32) :
    0 ≤ Scalar.select c (Ideal.pow deg y) z ∧ Scalar.select c (Ideal.pow deg y) z ≠ ⊤ := by
  subst hdeg hy hz
  rw [ofBits_neg_half_f32]
  exact select_pow_fin c r _ hr

/-- Every normalisation entry is a non-negative finite number. -/
theorem dinv_fin (n : Fin 50000) : 0 ≤ KSpec.dinv x1 (ix1 n) ∧ KSpec.dinv x1 (ix1 n) ≠ ⊤ := by
  unfold KSpec.dinv
  rw [select_apply, hostPowf_apply]
  exact guard_fin _ _ _ _ _ (Nat.cast_nonneg _) (deg_at x1 n) (bcast_const _ _ _) (bcast_const bcast_S_S50000 _ _)

/-! ## The index arrays -/

/-- The destination numbers with negative ones wrapped by the number of nodes, as a one-column index array: what the
    reference gathers the normalisation vector by. -/
def dstW (x1 : IVec S2x800000 32) : IVec S850000x1 32 :=
  broadcastInDim S850000x1 ![0] bcast_S850000_S850000x1_0
    (select (cmpi .slt (KSpec.dstRaw x1) (broadcastInDim S850000 ![] bcast_S_S850000 (constantI S_ 32 0#32)))
      (addi (KSpec.dstRaw x1) (broadcastInDim S850000 ![] bcast_S_S850000 (constantI S_ 32 50000#32))) (KSpec.dstRaw x1))

/-- An edge that lands on node n is gathered, through the wrapped destination numbers, at row n. -/
theorem land_clamp (e : Fin 850000) (n : Fin 50000) (h : landRow 50000 (KSpec.dstI x1) e = some n) :
    clampRow (N := 50000) (by decide) (dstW x1) e = n := by
  obtain ⟨h0, hn⟩ := landRow_word (KSpec.dstI x1) e n h
  have hw : KSpec.dstI x1 (ix2 e (0 : Fin 1)) = KSpec.dstRaw x1 (ix1 e) := bid_col (by decide) _ _ e 0
  rw [hw] at h0 hn
  have hW : dstW x1 (ix2 e (0 : Fin 1)) = KSpec.dstRaw x1 (ix1 e) := by
    unfold dstW
    rw [bid_col (by decide)]
    show Scalar.select (IntOp.cmpi .slt (KSpec.dstRaw x1 (ix1 e)) (0#32)) _ (KSpec.dstRaw x1 (ix1 e)) = _
    exact wrap_of_nonneg _ h0 _ _
  apply Fin.ext
  show min (dstW x1 (ix2 e (0 : Fin 1))).toInt.toNat (50000 - 1) = n.val
  rw [hW, hn]
  have := n.isLt
  omega

/-! ## The reference's per-edge norm -/

/-- The reference's norm of edge e: the normalisation entries of the two rows it gathers. -/
theorem norm_at (e : Fin 850000) : Cert.ReferenceIdeal.Read.val_main_v30 (F := Ideal) x1 (ix1 e)
    = KSpec.dinv x1 (ix1 (clampRow (N := 50000) (by decide) (KSpec.srcI x1) e))
      * KSpec.dinv x1 (ix1 (clampRow (N := 50000) (by decide) (dstW x1) e)) := by
  unfold Cert.ReferenceIdeal.Read.val_main_v30
  rw [mulf_apply]
  refine congrArg₂ (· * ·) ?_ ?_
  · exact gather_vec_apply (N := 50000) (by decide) Cert.ReferenceIdeal.gather_S50000_S850000x1_S850000_n_0_n_n_0_1_1.wf
      (KSpec.dinv x1) (KSpec.srcI x1) e
  · exact gather_vec_apply (N := 50000) (by decide) Cert.ReferenceIdeal.gather_S50000_S850000x1_S850000_n_0_n_n_0_1_1.wf
      (KSpec.dinv x1) (dstW x1) e

theorem nb1_at (e : Fin 850000) (j : Fin 128) : Cert.ReferenceIdeal.Read.val_main_v40 (F := Ideal) x1 (ix2 e j)
    = KSpec.dinv x1 (ix1 (clampRow (N := 50000) (by decide) (KSpec.srcI x1) e))
      * KSpec.dinv x1 (ix1 (clampRow (N := 50000) (by decide) (dstW x1) e)) := by
  unfold Cert.ReferenceIdeal.Read.val_main_v40 Cert.ReferenceIdeal.Read.val_main_v39
  rw [bid_cols (by decide), bid_col (by decide)]
  exact norm_at x1 e

theorem nb2_at (e : Fin 850000) (j : Fin 128) : Cert.ReferenceIdeal.Read.val_main_v58 (F := Ideal) x1 (ix2 e j)
    = KSpec.dinv x1 (ix1 (clampRow (N := 50000) (by decide) (KSpec.srcI x1) e))
      * KSpec.dinv x1 (ix1 (clampRow (N := 50000) (by decide) (dstW x1) e)) := by
  unfold Cert.ReferenceIdeal.Read.val_main_v58 Cert.ReferenceIdeal.Read.val_main_v57
  rw [bid_cols (by decide), bid_col (by decide)]
  exact norm_at x1 e

theorem nb3_at (e : Fin 850000) (j : Fin 40) : Cert.ReferenceIdeal.Read.val_main_v76 (F := Ideal) x1 (ix2 e j)
    = KSpec.dinv x1 (ix1 (clampRow (N := 50000) (by decide) (KSpec.srcI x1) e))
      * KSpec.dinv x1 (ix1 (clampRow (N := 50000) (by decide) (dstW x1) e)) := by
  unfold Cert.ReferenceIdeal.Read.val_main_v76 Cert.ReferenceIdeal.Read.val_main_v75
  rw [bid_cols (by decide), bid_col (by decide)]
  exact norm_at x1 e

end Cert.Bridge

end
-- ==== Proof.Bridge2.lean ====
/-
  The three layers. After each region the kernel's array is the reference's matrix product of that layer with row r
  scaled by d(r); so the reference's convolution of the product equals the kernel's aggregation scaled by d(n), and the
  clipped, biased rows agree.
-/
import proofs.«120668_j1683627180254_2_alg».proof.Proof.Bridge1

set_option maxRecDepth 16384
set_option maxHeartbeats 4000000

noncomputable section

open scoped BigOperators

namespace Cert.Bridge

open Cert.KernelIdeal Cert.KernelIdeal.Gen Idealize.ShloMosaic Idealize.ShloMosaic.ValueIdx Cert.GcnLaw

variable (x0 : FVec Ideal S50000x128 .f32) (x1 : IVec S2x800000 32) (x2 : FVec Ideal S128x128 .f32) (x3 : FVec Ideal S128 .f32)
  (x4 : FVec Ideal S128x128 .f32) (x5 : FVec Ideal S128 .f32) (x6 : FVec Ideal S128x40 .f32) (x7 : FVec Ideal S40 .f32)

/-! ## The contracted coordinates of the three products -/

theorem lidx31 (r : Fin 50000) (j : Fin 128) (k : Fin 128) : Cert.ReferenceIdeal.Read.lidx_main_v31 (ix2 r j) k = ix2 r k := by
  funext a; apply Fin.ext
  match a with
  | ⟨0, _⟩ => rfl
  | ⟨1, _⟩ => rfl
theorem ridx31 (r : Fin 50000) (j : Fin 128) (k : Fin 128) : Cert.ReferenceIdeal.Read.ridx_main_v31 (ix2 r j) k = ix2 k j := by
  funext a; apply Fin.ext
  match a with
  | ⟨0, _⟩ => rfl
  | ⟨1, _⟩ => rfl
theorem lidx49 (r : Fin 50000) (j : Fin 128) (k : Fin 128) : Cert.ReferenceIdeal.Read.lidx_main_v49 (ix2 r j) k = ix2 r k := by
  funext a; apply Fin.ext
  match a with
  | ⟨0, _⟩ => rfl
  | ⟨1, _⟩ => rfl
theorem ridx49 (r : Fin 50000) (j : Fin 128) (k : Fin 128) : Cert.ReferenceIdeal.Read.ridx_main_v49 (ix2 r j) k = ix2 k j := by
  funext a; apply Fin.ext
  match a with
  | ⟨0, _⟩ => rfl
  | ⟨1, _⟩ => rfl
theorem lidx67 (r : Fin 50000) (j : Fin 40) (k : Fin 128) : Cert.ReferenceIdeal.Read.lidx_main_v67 (ix2 r j) k = ix2 r k := by
  funext a; apply Fin.ext
  match a with
  | ⟨0, _⟩ => rfl
  | ⟨1, _⟩ => rfl
theorem ridx67 (r : Fin 50000) (j : Fin 40) (k : Fin 128) : Cert.ReferenceIdeal.Read.ridx_main_v67 (ix2 r j) k = ix2 k j := by
  funext a; apply Fin.ext
  match a with
  | ⟨0, _⟩ => rfl
  | ⟨1, _⟩ => rfl

/-! ## Layer one -/

/-- The first region's array is the reference's first product, row r scaled by d(r). -/
theorem scaled1 (r : Fin 50000) (j : Fin 128) :
    KSpec.hw1 x0 x1 x2 (ix2 r j) = Cert.ReferenceIdeal.Read.val_main_v31 (F := Ideal) x0 x2 (ix2 r j) * KSpec.dinv x1 (ix1 r) := by
  unfold KSpec.hw1 Region0.G
  rw [Cert.ReferenceIdeal.Read.val_main_v31_apply]
  show (∑ k : Fin 128, x0 (ix2 r k) * (truncf .bf16 x2 bitsLt_bf16_f32) (ix2 k j)) * KSpec.dcol x1 (ix2 r (0 : Fin 1)) = _
  rw [dcol_at]
  refine congrArg (· * KSpec.dinv x1 (ix1 r)) ?_
  refine Finset.sum_congr rfl fun k _ => ?_
  rw [lidx31, ridx31]
  rfl

/-- The reference's first convolution is the kernel's first aggregation, row n scaled by d(n). -/
theorem conv1 (n : Fin 50000) (j : Fin 128) :
    Cert.ReferenceIdeal.Read.val_main_v44 (F := Ideal) x0 x1 x2 (ix2 n j)
      = KSpec.agg128 x1 (KSpec.hw1 x0 x1 x2) (ix2 n j) * KSpec.dinv x1 (ix1 n) :=
  conv_generic (N := 50000) (R := 850000) (D := 128) (by decide) scatter_S50000x128_S850000x1_S850000x128_1_0_0_1.wf
    gather_S50000x128_S850000x1_S850000x128_1_0_n_n_0_1_1128.wf
    (Cert.ReferenceIdeal.Read.val_main_v31 (F := Ideal) x0 x2) (KSpec.hw1 x0 x1 x2) (KSpec.dinv x1) (KSpec.srcI x1) (KSpec.dstI x1) (dstW x1)
    (Cert.ReferenceIdeal.Read.val_main_v42 (F := Ideal)) (Cert.ReferenceIdeal.Read.val_main_v40 (F := Ideal) x1)
    (fun i => (bcast_const Cert.ReferenceIdeal.Gen.bcast_S_S50000x128 0x00000000#32 i).trans Ideal.ofBits_zero_f32)
    (nb1_at x1) (scaled1 x0 x1 x2) (dinv_fin x1) (land_clamp x1) n j

/-- The reference's first hidden array at an entry: the convolution plus the bias, clipped below at zero. -/
theorem relu1_at (r : Fin 50000) (k : Fin 128) : Cert.ReferenceIdeal.Read.val_main_v48 (F := Ideal) x0 x1 x2 x3 (ix2 r k)
    = max (Cert.ReferenceIdeal.Read.val_main_v44 (F := Ideal) x0 x1 x2 (ix2 r k) + x3 (ix1 k)) (Ideal.ofBits .f32 0x00000000#32) := by
  unfold Cert.ReferenceIdeal.Read.val_main_v48
  rw [maximumf_apply]
  unfold Cert.ReferenceIdeal.Read.val_main_v47
  rw [addf_apply]
  unfold Cert.ReferenceIdeal.Read.val_main_v46 Cert.ReferenceIdeal.Read.val_main_v45 Cert.ReferenceIdeal.Read.val_main_call1_v0 Cert.ReferenceIdeal.Read.val_main_call1_cst
  rw [bid_rows (by decide), bid_row (by decide), bcast_const]

/-! ## Layer two -/

/-- The second region's array is the reference's second product, row r scaled by d(r). -/
theorem scaled2 (r : Fin 50000) (j : Fin 128) :
    KSpec.hw2 x0 x1 x2 x3 x4 (ix2 r j) = Cert.ReferenceIdeal.Read.val_main_v49 (F := Ideal) x0 x1 x2 x3 x4 (ix2 r j) * KSpec.dinv x1 (ix1 r) := by
  unfold KSpec.hw2 Region1.G
  rw [Cert.ReferenceIdeal.Read.val_main_v49_apply]
  show (∑ k : Fin 128, max (KSpec.agg128 x1 (KSpec.hw1 x0 x1 x2) (ix2 r k) * KSpec.dcol x1 (ix2 r (0 : Fin 1))
        + (shapeCast S1x128 x3 shapeCasts_S128_S1x128) (ix2 (0 : Fin 1) k)) (Ideal.ofBits .f32 0x00000000#32)
      * (truncf .bf16 x4 bitsLt_bf16_f32) (ix2 k j)) * KSpec.dcol x1 (ix2 r (0 : Fin 1)) = _
  rw [dcol_at]
  refine congrArg (· * KSpec.dinv x1 (ix1 r)) ?_
  refine Finset.sum_congr rfl fun k _ => ?_
  rw [lidx49, ridx49, relu1_at, conv1, shapeCast_a_1a_apply]
  rfl

/-- The reference's second convolution is the kernel's second aggregation, row n scaled by d(n). -/
theorem conv2 (n : Fin 50000) (j : Fin 128) :
    Cert.ReferenceIdeal.Read.val_main_v62 (F := Ideal) x0 x1 x2 x3 x4 (ix2 n j)
      = KSpec.agg128 x1 (KSpec.hw2 x0 x1 x2 x3 x4) (ix2 n j) * KSpec.dinv x1 (ix1 n) :=
  conv_generic (N := 50000) (R := 850000) (D := 128) (by decide) scatter_S50000x128_S850000x1_S850000x128_1_0_0_1.wf
    gather_S50000x128_S850000x1_S850000x128_1_0_n_n_0_1_1128.wf
    (Cert.ReferenceIdeal.Read.val_main_v49 (F := Ideal) x0 x1 x2 x3 x4) (KSpec.hw2 x0 x1 x2 x3 x4) (KSpec.dinv x1) (KSpec.srcI x1) (KSpec.dstI x1) (dstW x1)
    (Cert.ReferenceIdeal.Read.val_main_v60 (F := Ideal)) (Cert.ReferenceIdeal.Read.val_main_v58 (F := Ideal) x1)
    (fun i => (bcast_const Cert.ReferenceIdeal.Gen.bcast_S_S50000x128 0x00000000#32 i).trans Ideal.ofBits_zero_f32)
    (nb2_at x1) (scaled2 x0 x1 x2 x3 x4) (dinv_fin x1) (land_clamp x1) n j

/-- The reference's second hidden array at an entry. -/
theorem relu2_at (r : Fin 50000) (k : Fin 128) : Cert.ReferenceIdeal.Read.val_main_v66 (F := Ideal) x0 x1 x2 x3 x4 x5 (ix2 r k)
    = max (Cert.ReferenceIdeal.Read.val_main_v62 (F := Ideal) x0 x1 x2 x3 x4 (ix2 r k) + x5 (ix1 k)) (Ideal.ofBits .f32 0x00000000#32) := by
  unfold Cert.ReferenceIdeal.Read.val_main_v66
  rw [maximumf_apply]
  unfold Cert.ReferenceIdeal.Read.val_main_v65
  rw [addf_apply]
  unfold Cert.ReferenceIdeal.Read.val_main_v64 Cert.ReferenceIdeal.Read.val_main_v63 Cert.ReferenceIdeal.Read.val_main_call2_v0 Cert.ReferenceIdeal.Read.val_main_call2_cst
  rw [bid_rows (by decide), bid_row (by decide), bcast_const]

/-! ## Layer three -/

/-- The third region's array is the reference's third product, row r scaled by d(r). -/
theorem scaled3 (r : Fin 50000) (j : Fin 40) :
    KSpec.hw3 x0 x1 x2 x3 x4 x5 x6 (ix2 r j) = Cert.ReferenceIdeal.Read.val_main_v67 (F := Ideal) x0 x1 x2 x3 x4 x5 x6 (ix2 r j) * KSpec.dinv x1 (ix1 r) := by
  unfold KSpec.hw3 Region2.G
  rw [Cert.ReferenceIdeal.Read.val_main_v67_apply]
  show (∑ k : Fin 128, max (KSpec.agg128 x1 (KSpec.hw2 x0 x1 x2 x3 x4) (ix2 r k) * KSpec.dcol x1 (ix2 r (0 : Fin 1))
        + (shapeCast S1x128 x5 shapeCasts_S128_S1x128) (ix2 (0 : Fin 1) k)) (Ideal.ofBits .f32 0x00000000#32)
      * (truncf .bf16 x6 bitsLt_bf16_f32) (ix2 k j)) * KSpec.dcol x1 (ix2 r (0 : Fin 1)) = _
  rw [dcol_at]
  refine congrArg (· * KSpec.dinv x1 (ix1 r)) ?_
  refine Finset.sum_congr rfl fun k _ => ?_
  rw [lidx67, ridx67, relu2_at, conv2, shapeCast_a_1a_apply]
  rfl

/-- The reference's third convolution is the kernel's third aggregation, row n scaled by d(n). -/
theorem conv3 (n : Fin 50000) (j : Fin 40) :
    Cert.ReferenceIdeal.Read.val_main_v80 (F := Ideal) x0 x1 x2 x3 x4 x5 x6 (ix2 n j)
      = KSpec.agg40 x1 (KSpec.hw3 x0 x1 x2 x3 x4 x5 x6) (ix2 n j) * KSpec.dinv x1 (ix1 n) :=
  conv_generic (N := 50000) (R := 850000) (D := 40) (by decide) scatter_S50000x40_S850000x1_S850000x40_1_0_0_1.wf
    gather_S50000x40_S850000x1_S850000x40_1_0_n_n_0_1_140.wf
    (Cert.ReferenceIdeal.Read.val_main_v67 (F := Ideal) x0 x1 x2 x3 x4 x5 x6) (KSpec.hw3 x0 x1 x2 x3 x4 x5 x6) (KSpec.dinv x1) (KSpec.srcI x1) (KSpec.dstI x1) (dstW x1)
    (Cert.ReferenceIdeal.Read.val_main_v78 (F := Ideal)) (Cert.ReferenceIdeal.Read.val_main_v76 (F := Ideal) x1)
    (fun i => (bcast_const Cert.ReferenceIdeal.Gen.bcast_S_S50000x40 0x00000000#32 i).trans Ideal.ofBits_zero_f32)
    (nb3_at x1) (scaled3 x0 x1 x2 x3 x4 x5 x6) (dinv_fin x1) (land_clamp x1) n j

/-- The reference's last pre-softmax array at an entry: the third convolution plus the bias. -/
theorem logits_at (n : Fin 50000) (j : Fin 40) : Cert.ReferenceIdeal.Read.val_main_v83 (F := Ideal) x0 x1 x2 x3 x4 x5 x6 x7 (ix2 n j)
    = KSpec.agg40 x1 (KSpec.hw3 x0 x1 x2 x3 x4 x5 x6) (ix2 n j) * KSpec.dinv x1 (ix1 n) + x7 (ix1 j) := by
  unfold Cert.ReferenceIdeal.Read.val_main_v83
  rw [addf_apply, conv3]
  unfold Cert.ReferenceIdeal.Read.val_main_v82 Cert.ReferenceIdeal.Read.val_main_v81
  rw [bid_rows (by decide), bid_row (by decide)]

end Cert.Bridge

end
-- ==== Proof.Bridge3.lean ====
/-
  The last step: both programs take the log-softmax of the same rows. The kernel's last region scales row n of the last
  aggregation by d(n), adds the bias, subtracts the row's largest entry and the logarithm of the sum of exponentials; the
  reference does the same to its last convolution plus the bias, which is the same row by the third convolution
  equality. The reference folds the row maximum from the lowest value and then takes the maximum with the lowest value
  once more, which changes nothing; its row sum starts from zero, which adds nothing.
-/
import proofs.«120668_j1683627180254_2_alg».proof.Proof.Bridge2

set_option maxRecDepth 16384
set_option maxHeartbeats 4000000

noncomputable section

open scoped BigOperators

namespace Cert.Bridge

open Cert.KernelIdeal Cert.KernelIdeal.Gen Idealize.ShloMosaic Idealize.ShloMosaic.ValueIdx Cert.GcnLaw

variable (x0 : FVec Ideal S50000x128 .f32) (x1 : IVec S2x800000 32) (x2 : FVec Ideal S128x128 .f32) (x3 : FVec Ideal S128 .f32)
  (x4 : FVec Ideal S128x128 .f32) (x5 : FVec Ideal S128 .f32) (x6 : FVec Ideal S128x40 .f32) (x7 : FVec Ideal S40 .f32)

/-- The lowest float pattern is the least extended real. -/
theorem ofBits_ninf : Ideal.ofBits .f32 0xFF800000#32 = ⊥ := by simp [Ideal.ofBits, Ideal.ieee]

/-- A host logarithm and exponential, entry by entry. -/
theorem hostLog_apply {s : Shape} (a : FVec Ideal s .f32) (i : s.Idx) : Host.log a i = Ideal.log (a i) := rfl
theorem hostExp_apply {s : Shape} (a : FVec Ideal s .f32) (i : s.Idx) : Host.exp a i = Ideal.exp (a i) := rfl

/-- The last region's array at an entry. -/
theorem G3_apply (a : S50000x40.Idx → EReal) (d : S50000x1.Idx → EReal) (b : S1x40.Idx → EReal) (n : Fin 50000) (j : Fin 40) :
    Region3.G a d b (ix2 n j) = (Region3.lg a d b n j - Region3.mx a d b n)
      - Ideal.log (∑ j' : Fin 40, Ideal.exp (Region3.lg a d b n j' - Region3.mx a d b n)) := rfl

/-- For any [50000, 40] array: the maximum of the lowest value and the host's max-reduction of row n from the lowest
    value is the fold of max over the row's forty entries. -/
theorem rowmax_gen (v : S50000x40.Idx → EReal) (n : Fin 50000) (h' : S50000x40.ReducesTo [1] S50000) (hu : 0 < S_.numel) :
    max (Ideal.ofBits .f32 0xFF800000#32)
        (Host.reduce FloatOps.maximumf v (constant (F := Ideal) S_ .f32 0xFF800000#32) h' hu (ix1 n))
      = (Finset.univ : Finset (Fin 40)).fold max (Ideal.ofBits .f32 0xFF800000#32) (fun k : Fin 40 => v (ix2 n k)) := by
  have hred : S50000x40.Reduces [1] S50000 := by decide
  rw [Host.reduce_eq_fold_single (s := S50000x40) (t := S50000) (a := (1 : Fin 2)) (u := S_) FloatOps.maximumf
    v (constant (F := Ideal) S_ .f32 0xFF800000#32) h' hred hu (ix1 n)]
  rw [show ∀ y : EReal, max (Ideal.ofBits .f32 0xFF800000#32) y = y from fun y => by rw [ofBits_ninf]; exact max_eq_right bot_le]
  refine (Finset.fold_congr (g := fun k : Fin 40 => v (ix2 n k)) (fun k _ => ?_)).trans rfl
  exact congrArg v (Body.lift_row (R := 50000) (D := 40) hred n k)

/-- The reference's row maximum: the fold of max over the row from the lowest value. -/
theorem rowmax_ref (n : Fin 50000) : Cert.ReferenceIdeal.Read.val_main_call3_v2 (F := Ideal) x0 x1 x2 x3 x4 x5 x6 x7 (ix1 n)
    = (Finset.univ : Finset (Fin 40)).fold max (Ideal.ofBits .f32 0xFF800000#32)
        (fun k : Fin 40 => Cert.ReferenceIdeal.Read.val_main_v83 (F := Ideal) x0 x1 x2 x3 x4 x5 x6 x7 (ix2 n k)) := by
  unfold Cert.ReferenceIdeal.Read.val_main_call3_v2
  rw [maximumf_apply]
  unfold Cert.ReferenceIdeal.Read.val_main_call3_v1 Cert.ReferenceIdeal.Read.val_main_call3_cst_0 Cert.ReferenceIdeal.Read.val_main_call3_v0 Cert.ReferenceIdeal.Read.val_main_call3_cst
  rw [bcast_const]
  exact rowmax_gen (Cert.ReferenceIdeal.Read.val_main_v83 (F := Ideal) x0 x1 x2 x3 x4 x5 x6 x7) n _ _

/-- The reference's shifted row entry. -/
theorem shifted_ref (n : Fin 50000) (k : Fin 40) : Cert.ReferenceIdeal.Read.val_main_call3_v5 (F := Ideal) x0 x1 x2 x3 x4 x5 x6 x7 (ix2 n k)
    = Cert.ReferenceIdeal.Read.val_main_v83 (F := Ideal) x0 x1 x2 x3 x4 x5 x6 x7 (ix2 n k)
      - (Finset.univ : Finset (Fin 40)).fold max (Ideal.ofBits .f32 0xFF800000#32)
          (fun k' : Fin 40 => Cert.ReferenceIdeal.Read.val_main_v83 (F := Ideal) x0 x1 x2 x3 x4 x5 x6 x7 (ix2 n k')) := by
  unfold Cert.ReferenceIdeal.Read.val_main_call3_v5
  rw [subf_apply]
  unfold Cert.ReferenceIdeal.Read.val_main_call3_v4 Cert.ReferenceIdeal.Read.val_main_call3_v3
  rw [bid_cols (by decide), bid_col (by decide), rowmax_ref]

/-- The inserted index of the reference's row sum. -/
theorem idx_sum (n : Fin 50000) (k : Fin 40) : Cert.ReferenceIdeal.Read.idx_main_call3_v7 (ix1 n) k = ix2 n k := by
  funext a; apply Fin.ext
  match a with
  | ⟨0, _⟩ => rfl
  | ⟨1, _⟩ => rfl

/-- The reference's result at an entry: the shifted entry minus the logarithm of the row's sum of exponentials. -/
theorem ref_out_at (n : Fin 50000) (j : Fin 40) : Cert.ReferenceIdeal.Read.val_main_v84 (F := Ideal) x0 x1 x2 x3 x4 x5 x6 x7 (ix2 n j)
    = (Cert.ReferenceIdeal.Read.val_main_v83 (F := Ideal) x0 x1 x2 x3 x4 x5 x6 x7 (ix2 n j)
        - (Finset.univ : Finset (Fin 40)).fold max (Ideal.ofBits .f32 0xFF800000#32) (fun k' : Fin 40 => Cert.ReferenceIdeal.Read.val_main_v83 (F := Ideal) x0 x1 x2 x3 x4 x5 x6 x7 (ix2 n k')))
      - Ideal.log (∑ k : Fin 40, Ideal.exp (Cert.ReferenceIdeal.Read.val_main_v83 (F := Ideal) x0 x1 x2 x3 x4 x5 x6 x7 (ix2 n k)
        - (Finset.univ : Finset (Fin 40)).fold max (Ideal.ofBits .f32 0xFF800000#32) (fun k' : Fin 40 => Cert.ReferenceIdeal.Read.val_main_v83 (F := Ideal) x0 x1 x2 x3 x4 x5 x6 x7 (ix2 n k')))) := by
  unfold Cert.ReferenceIdeal.Read.val_main_v84
  rw [subf_apply, shifted_ref]
  unfold Cert.ReferenceIdeal.Read.val_main_call3_v10 Cert.ReferenceIdeal.Read.val_main_call3_v9
  rw [bid_cols (by decide), hostLog_apply]
  unfold Cert.ReferenceIdeal.Read.val_main_call3_v8
  rw [bid_col (by decide), Cert.ReferenceIdeal.Read.val_main_call3_v7_apply]
  refine congrArg (HSub.hSub _) (congrArg Ideal.log ?_)
  unfold Cert.ReferenceIdeal.Read.val_main_call3_cst_1
  rw [constant_apply, Ideal.ofBits_zero_f32, zero_add]
  refine Finset.sum_congr rfl fun k _ => ?_
  rw [idx_sum]
  unfold Cert.ReferenceIdeal.Read.val_main_call3_v6
  rw [hostExp_apply, shifted_ref]

/-- The kernel's scaled and shifted last row is the reference's pre-softmax row. -/
theorem lg_eq (n : Fin 50000) :
    Region3.lg (KSpec.agg40 x1 (KSpec.hw3 x0 x1 x2 x3 x4 x5 x6)) (KSpec.dcol x1) (shapeCast S1x40 x7 shapeCasts_S40_S1x40) n
      = fun k : Fin 40 => Cert.ReferenceIdeal.Read.val_main_v83 (F := Ideal) x0 x1 x2 x3 x4 x5 x6 x7 (ix2 n k) := by
  funext k
  unfold Region3.lg
  rw [dcol_at, shapeCast_a_1a_apply, logits_at]

/-- The kernel's result at an entry, in the same form. -/
theorem ker_out_at (n : Fin 50000) (j : Fin 40) : KSpec.out x0 x1 x2 x3 x4 x5 x6 x7 (ix2 n j)
    = (Cert.ReferenceIdeal.Read.val_main_v83 (F := Ideal) x0 x1 x2 x3 x4 x5 x6 x7 (ix2 n j)
        - (Finset.univ : Finset (Fin 40)).fold max (Ideal.ofBits .f32 0xFF800000#32) (fun k' : Fin 40 => Cert.ReferenceIdeal.Read.val_main_v83 (F := Ideal) x0 x1 x2 x3 x4 x5 x6 x7 (ix2 n k')))
      - Ideal.log (∑ k : Fin 40, Ideal.exp (Cert.ReferenceIdeal.Read.val_main_v83 (F := Ideal) x0 x1 x2 x3 x4 x5 x6 x7 (ix2 n k)
        - (Finset.univ : Finset (Fin 40)).fold max (Ideal.ofBits .f32 0xFF800000#32) (fun k' : Fin 40 => Cert.ReferenceIdeal.Read.val_main_v83 (F := Ideal) x0 x1 x2 x3 x4 x5 x6 x7 (ix2 n k')))) := by
  unfold KSpec.out
  rw [G3_apply]
  unfold Region3.mx
  simp only [lg_eq]

/-- The two programs' result arrays are one array. -/
theorem out_eq : KSpec.out x0 x1 x2 x3 x4 x5 x6 x7 = Cert.ReferenceIdeal.Read.val_main_v84 (F := Ideal) x0 x1 x2 x3 x4 x5 x6 x7 := by
  funext i
  obtain ⟨n, j, rfl⟩ : ∃ (n : Fin 50000) (j : Fin 40), i = ix2 n j := ⟨i 0, i 1, eq_ix2 i⟩
  rw [ker_out_at, ref_out_at]

end Cert.Bridge

end
-- ==== Proof.lean ====
/-
  A three-layer graph convolution network followed by a row-wise log-softmax, as a pipelined accelerator program and as
  a plain array program: the two compute the same array of extended reals.

  Both programs build the same edge list (the given edges and one self loop per node), the same degree vector (the
  number of edges into each node) and the same normalisation vector d = deg^(-1/2), guarded at zero. A convolution of an
  array H is: gather H's rows by the edges' sources, scale, add into the rows of the edges' destinations. The plain
  program scales edge e's row by d(src e) · d(dst e). The accelerator program folds d(src ·) into the row-blocked matrix
  product that precedes the gather, and folds d(dst ·) — constant over the edges into one node — into the region that
  follows the add. Since d(n) is a count raised to a real power, or zero, it is a non-negative finite number, and
  multiplication by such a number distributes over a sum of extended reals with no assumption on the summands: the two
  convolutions agree entry by entry, for every input. Each region's ten row blocks tile the fifty thousand rows, so
  each region's output is one whole-array function of its inputs; the host operations between the regions are the same
  gather and add in both programs. The last region and the plain program then take the same log-softmax of the same
  rows. The frames of the two accelerator programs are the generated ones; the plain program's run is read off its
  operation list stretch by stretch.
-/
import proofs.«120668_j1683627180254_2_alg».proof.Defs
import proofs.«120668_j1683627180254_2_alg».proof.Proof.Gen.Kernel
import proofs.«120668_j1683627180254_2_alg».proof.Proof.Gen.Kernel.Skeleton
import proofs.«120668_j1683627180254_2_alg».proof.Proof.Gen.Kernel.Launch
import proofs.«120668_j1683627180254_2_alg».proof.Proof.Gen.Kernel.Points
import proofs.«120668_j1683627180254_2_alg».proof.Proof.Gen.Kernel.Frame
import proofs.«120668_j1683627180254_2_alg».proof.Proof.Gen.KernelIdeal
import proofs.«120668_j1683627180254_2_alg».proof.Proof.Gen.KernelIdeal.Skeleton
import proofs.«120668_j1683627180254_2_alg».proof.Proof.Gen.KernelIdeal.Launch
import proofs.«120668_j1683627180254_2_alg».proof.Proof.Gen.KernelIdeal.Points
import proofs.«120668_j1683627180254_2_alg».proof.Proof.Gen.KernelIdeal.Frame
import proofs.«120668_j1683627180254_2_alg».proof.Proof.Gen.ReferenceIdeal
import proofs.«120668_j1683627180254_2_alg».proof.Proof.Gen.Pre_finite_inputs
import proofs.«120668_j1683627180254_2_alg».proof.Proof.KRun
import proofs.«120668_j1683627180254_2_alg».proof.Proof.HostK
import proofs.«120668_j1683627180254_2_alg».proof.Proof.RefValue
import proofs.«120668_j1683627180254_2_alg».proof.Proof.Bridge3
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The plain program terminates with its arguments unchanged: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both programs end with the one array of the launch arguments. -/
theorem algebraic : Cert.algebraic_KernelIdeal_ReferenceIdeal := by
  intro m ρ m' ρ' _ hagree
  refine ⟨fun c => Cert.KernelIdeal.KSpec.out (Cert.KernelIdeal.HostK.arg0 m c) (Cert.KernelIdeal.HostK.arg1 m c)
      (Cert.KernelIdeal.HostK.arg2 m c) (Cert.KernelIdeal.HostK.arg3 m c) (Cert.KernelIdeal.HostK.arg4 m c)
      (Cert.KernelIdeal.HostK.arg5 m c) (Cert.KernelIdeal.HostK.arg6 m c) (Cert.KernelIdeal.HostK.arg7 m c), ?_, ?_⟩
  · exact (θ_run Cert.KernelIdeal.defs _ _).mono
      (fun r h c => ⟨(h c).1.trans (Cert.KernelIdeal.HostK.W10_v59 m ρ c), (h c).2⟩) (Cert.KernelIdeal.KRun.run m ρ)
  · refine (θ_run Cert.ReferenceIdeal.defs _ _).mono (fun r h c => ⟨(h c).1.trans ?_, (h c).2⟩)
      (Cert.ReferenceIdeal.RefValue.run (F := Ideal) m' ρ')
    obtain ⟨h0, h1, h2, h3, h4, h5, h6, h7⟩ := hagree c
    rw [h0, h1, h2, h3, h4, h5, h6, h7]
    exact (Cert.Bridge.out_eq (Cert.KernelIdeal.HostK.arg0 m c) (Cert.KernelIdeal.HostK.arg1 m c) (Cert.KernelIdeal.HostK.arg2 m c)
      (Cert.KernelIdeal.HostK.arg3 m c) (Cert.KernelIdeal.HostK.arg4 m c) (Cert.KernelIdeal.HostK.arg5 m c)
      (Cert.KernelIdeal.HostK.arg6 m c) (Cert.KernelIdeal.HostK.arg7 m c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
